-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x256 .f32) (main_arg14 : FVec F S128 .f32) (main_arg15 : FVec F S128x256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128x256 .f32 := Host.absf main_arg13
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg15
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_v63 main_v67

def fn_part2 {F : FTy → Type} [FloatOps F] (main_arg9 : FVec F S128x256 .f32) (main_arg10 : FVec F S256x128 .f32) (main_arg11 : FVec F S256 .f32) (main_arg12 : FVec F S256x128 .f32) (main_arg13 : FVec F S128x256 .f32) (main_arg14 : FVec F S128 .f32) (main_arg15 : FVec F S128x256 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S256x128 .f32) (main_arg7 : FVec F S128x256 .f32) (main_arg8 : FVec F S128 .f32) (main_arg9 : FVec F S128x256 .f32) (main_arg10 : FVec F S256x128 .f32) (main_arg11 : FVec F S256 .f32) (main_arg12 : FVec F S256x128 .f32) (main_arg13 : FVec F S128x256 .f32) (main_arg14 : FVec F S128 .f32) (main_arg15 : FVec F S128x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x128 .f32) (main_arg2 : IVec S2x800000 32) (main_arg3 : IVec S2x800000 32) (main_arg4 : FVec F S256x128 .f32) (main_arg5 : FVec F S256 .f32) (main_arg6 : FVec F S256x128 .f32) (main_arg7 : FVec F S128x256 .f32) (main_arg8 : FVec F S128 .f32) (main_arg9 : FVec F S128x256 .f32) (main_arg10 : FVec F S256x128 .f32) (main_arg11 : FVec F S256 .f32) (main_arg12 : FVec F S256x128 .f32) (main_arg13 : FVec F S128x256 .f32) (main_arg14 : FVec F S128 .f32) (main_arg15 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩
abbrev S100000x128 : Shape := ⟨2, ![100000, 128]⟩

abbrev nBuf : Space → Nat
  | .hbm => 133
  | .vmem => 36
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S256x128, .f32⟩
  | 5 => ⟨S256, .f32⟩
  | 6 => ⟨S256x128, .f32⟩
  | 7 => ⟨S128x256, .f32⟩
  | 8 => ⟨S128, .f32⟩
  | 9 => ⟨S128x256, .f32⟩
  | 10 => ⟨S256x128, .f32⟩
  | 11 => ⟨S256, .f32⟩
  | 12 => ⟨S256x128, .f32⟩
  | 13 => ⟨S128x256, .f32⟩
  | 14 => ⟨S128, .f32⟩
  | 15 => ⟨S128x256, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S1x256, .f32⟩
  | 46 => ⟨S50000x256, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S_, .f32⟩
  | 57 => ⟨S50000x256, .f32⟩
  | 58 => ⟨S800000x1, .i32⟩
  | 59 => ⟨S50000x256, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S1x128, .f32⟩
  | 73 => ⟨S50000x128, .f32⟩
  | 74 => ⟨S1x800000, .i32⟩
  | 75 => ⟨S800000, .i32⟩
  | 76 => ⟨S1x800000, .i32⟩
  | 77 => ⟨S800000, .i32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000x1, .f32⟩
  | 101 => ⟨S50000x128, .f32⟩
  | 102 => ⟨S50000x128, .f32⟩
  | 103 => ⟨S1x256, .f32⟩
  | 104 => ⟨S50000x256, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x256, .f32⟩
  | 1 => ⟨S50000x256, .f32⟩
  | 2 => ⟨S1x128, .f32⟩
  | 3 => ⟨S50000x128, .f32⟩
  | 4 => ⟨S100000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S128x256, .f32⟩
  | .local _ .vmem, ⟨14, _⟩ => ⟨S128x256, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S256x128, .f32⟩
  | .local _ .vmem, ⟨23, _⟩ => ⟨S256x128, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S128x256, .f32⟩
  | .local _ .vmem, ⟨32, _⟩ => ⟨S128x256, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_19 : Ref sig .tc := ⟨.hbm, 118, rfl⟩
abbrev main_v81 : Ref sig .tc := ⟨.hbm, 119, rfl⟩
abbrev main_cst_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_21 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S50000x128_S50000x128_S100000x128_d0 : Shape.Concatenates [S50000x128, S50000x128] S100000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v89) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S100000x128 : Shape := ⟨2, ![100000, 128]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S256x128, .f32⟩
  | 5 => ⟨S256, .f32⟩
  | 6 => ⟨S256x128, .f32⟩
  | 7 => ⟨S128x256, .f32⟩
  | 8 => ⟨S128, .f32⟩
  | 9 => ⟨S128x256, .f32⟩
  | 10 => ⟨S256x128, .f32⟩
  | 11 => ⟨S256, .f32⟩
  | 12 => ⟨S256x128, .f32⟩
  | 13 => ⟨S128x256, .f32⟩
  | 14 => ⟨S128, .f32⟩
  | 15 => ⟨S128x256, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S128x256, .f32⟩
  | 46 => ⟨S50000x256, .f32⟩
  | 47 => ⟨S1x256, .f32⟩
  | 48 => ⟨S50000x256, .f32⟩
  | 49 => ⟨S50000x256, .f32⟩
  | 50 => ⟨S128x256, .f32⟩
  | 51 => ⟨S50000x256, .f32⟩
  | 52 => ⟨S50000x256, .f32⟩
  | 53 => ⟨S50000x256, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S_, .f32⟩
  | 64 => ⟨S50000x256, .f32⟩
  | 65 => ⟨S800000x1, .i32⟩
  | 66 => ⟨S50000x256, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x256, .f32⟩
  | 78 => ⟨S50000x256, .f32⟩
  | 79 => ⟨S256x128, .f32⟩
  | 80 => ⟨S50000x128, .f32⟩
  | 81 => ⟨S1x128, .f32⟩
  | 82 => ⟨S50000x128, .f32⟩
  | 83 => ⟨S50000x128, .f32⟩
  | 84 => ⟨S256x128, .f32⟩
  | 85 => ⟨S50000x128, .f32⟩
  | 86 => ⟨S50000x128, .f32⟩
  | 87 => ⟨S50000x128, .f32⟩
  | 88 => ⟨S1x800000, .i32⟩
  | 89 => ⟨S800000, .i32⟩
  | 90 => ⟨S1x800000, .i32⟩
  | 91 => ⟨S800000, .i32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S128x256, .f32⟩
  | 118 => ⟨S50000x256, .f32⟩
  | 119 => ⟨S1x256, .f32⟩
  | 120 => ⟨S50000x256, .f32⟩
  | 121 => ⟨S50000x256, .f32⟩
  | 122 => ⟨S128x256, .f32⟩
  | 123 => ⟨S50000x256, .f32⟩
  | 124 => ⟨S50000x256, .f32⟩
  | 125 => ⟨S50000x256, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x256, .f32⟩
  | 7 => ⟨S_, .f32⟩
  | 8 => ⟨S50000x256, .f32⟩
  | 9 => ⟨S800000x1, .i32⟩
  | 10 => ⟨S50000x256, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x256, .f32⟩
  | 22 => ⟨S50000x256, .f32⟩
  | 23 => ⟨S256x128, .f32⟩
  | 24 => ⟨S50000x128, .f32⟩
  | 25 => ⟨S1x128, .f32⟩
  | 26 => ⟨S50000x128, .f32⟩
  | 27 => ⟨S50000x128, .f32⟩
  | 28 => ⟨S256x128, .f32⟩
  | 29 => ⟨S50000x128, .f32⟩
  | 30 => ⟨S50000x128, .f32⟩
  | 31 => ⟨S50000x128, .f32⟩
  | 32 => ⟨S100000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_16 : Ref sig .tc := ⟨.hbm, 126, rfl⟩
abbrev main_v92 : Ref sig .tc := ⟨.hbm, 127, rfl⟩
abbrev main_v93 : Ref sig .tc := ⟨.hbm, 128, rfl⟩
abbrev main_c_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_18 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S100000x128_d0 : Shape.Concatenates [S50000x128, S50000x128] S100000x128 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SageSpec.lean ====
/-
  The dense half of one GraphSAGE layer, as ONE function of whole arrays.

  Given the aggregated neighbour means `M` and the node features `X` (both N rows of Din numbers), the two weight
  matrices `Wl`, `Wr` (Dout rows of Din numbers each) and the bias `b` (Dout numbers), the layer's output at node r
  and output feature o is

      tanh ( ( Σ_k M(r,k) · Wl(o,k)  +  Σ_k X(r,k) · Wr(o,k) )  +  b(o) )

  over the extended reals: the two sums are the products with the TRANSPOSED weights, `M · Wlᵀ` and `X · Wrᵀ`.
  Both programs compute this number; they differ in where the bias is added (after the first product, or after
  both) and in whether the rows are handled 2000 at a time or all at once.  Addition of extended reals is
  commutative and associative, so the place of the bias does not matter (`add_right_comm`), and a row of a matrix
  product depends on that row of the left factor only, so the tiling does not matter either.  No finiteness of the
  inputs is used anywhere.
-/
import Idealize.ShloMosaic.Lib.ValueIdx
import Idealize.ShloMosaic.PureOps.Ideal

noncomputable section

namespace Cert.Sage

open Idealize.ShloMosaic Idealize.ShloMosaic.ValueIdx

variable {N Din Dout : Nat}

/-- The layer's output at node `r`, output feature `o`. -/
def denseAt (M X : FVec Ideal ⟨2, ![N, Din]⟩ .f32) (Wl Wr : FVec Ideal ⟨2, ![Dout, Din]⟩ .f32) (b : Fin Dout → EReal)
    (r : Fin N) (o : Fin Dout) : EReal :=
  Ideal.tanh (((∑ k : Fin Din, M (ix2 r k) * Wl (ix2 o k)) + ∑ k : Fin Din, X (ix2 r k) * Wr (ix2 o k)) + b o)

/-- The layer's whole output array. -/
def dense (M X : FVec Ideal ⟨2, ![N, Din]⟩ .f32) (Wl Wr : FVec Ideal ⟨2, ![Dout, Din]⟩ .f32) (b : Fin Dout → EReal) :
    FVec Ideal ⟨2, ![N, Dout]⟩ .f32 :=
  fun j => denseAt M X Wl Wr b ⟨(j 0).val, idx2_lt0 j⟩ ⟨(j 1).val, idx2_lt1 j⟩

/-- The output array read at (r, o). -/
theorem dense_ix2 (M X : FVec Ideal ⟨2, ![N, Din]⟩ .f32) (Wl Wr : FVec Ideal ⟨2, ![Dout, Din]⟩ .f32) (b : Fin Dout → EReal)
    (r : Fin N) (o : Fin Dout) : dense M X Wl Wr b (ix2 r o) = denseAt M X Wl Wr b r o := rfl

/-- The same number with the bias added after the FIRST product (the order the plain-jnp program uses): addition
    of extended reals is commutative and associative. -/
theorem denseAt_bias_first (M X : FVec Ideal ⟨2, ![N, Din]⟩ .f32) (Wl Wr : FVec Ideal ⟨2, ![Dout, Din]⟩ .f32) (b : Fin Dout → EReal)
    (r : Fin N) (o : Fin Dout) :
    Ideal.tanh (((∑ k : Fin Din, M (ix2 r k) * Wl (ix2 o k)) + b o) + ∑ k : Fin Din, X (ix2 r k) * Wr (ix2 o k))
      = denseAt M X Wl Wr b r o := by
  unfold denseAt
  rw [add_right_comm]

end Cert.Sage

end
-- ==== Proof.SageGlue.lean ====
/-
  The neighbour aggregation both programs share, as named functions.

  An edge list is a 2 × 800000 array of node numbers: row 0 the sources, row 1 the destinations.  For node features
  `x` (one row per node) the mean aggregate at node n is

      ( Σ over the edges e with destination n of  x(source e) )  /  max (number of such edges, 1).

  Both programs spell it with the same host operations in the same order: the source numbers wrapped (a negative
  number counts from the end), a row gather, a scatter-add into zeros at the destinations, a scatter-add of ones for
  the count, the maximum with one, and the quotient.  Nothing below opens these operations: the certificate only
  needs that the two programs apply the SAME function to values already known equal.
-/
import proofs.«178188_j50740743635551_1_alg».proof.Proof.Gen.KernelIdeal
import proofs.«178188_j50740743635551_1_alg».proof.Proof.SageSpec
import Idealize.ShloMosaic.PureOps.Ideal
import Idealize.ShloMosaic.Lib.ValueIdx

noncomputable section

namespace Cert.Sage

open Cert.KernelIdeal Cert.KernelIdeal.Facts₀ Cert.KernelIdeal.Facts Idealize.ShloMosaic Idealize.ShloMosaic.ValueIdx

/-- A vector of 800000 node numbers. -/
abbrev NodeIds := (⟨S800000, .i32⟩ : BufTy).Contents (Elt Ideal)
/-- An edge list. -/
abbrev Edges := (⟨S2x800000, .i32⟩ : BufTy).Contents (Elt Ideal)

/-- The sources: row 0 of the edge list. -/
def srcOf (e : Edges) : NodeIds :=
  shapeCast _ (extractStridedSlice S1x800000 ![0, 0] e slices_S2x800000_S1x800000_0_0) shapeCasts_S1x800000_S800000
/-- The destinations: row 1 of the edge list. -/
def dstOf (e : Edges) : NodeIds :=
  shapeCast _ (extractStridedSlice S1x800000 ![1, 0] e slices_S2x800000_S1x800000_1_0) shapeCasts_S1x800000_S800000

/-- Node numbers as a column of index vectors, a negative number first wrapped by the node count. -/
def wrapCol (s : NodeIds) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- Node numbers as a column of index vectors. -/
def col (d : NodeIds) : (⟨S800000x1, .i32⟩ : BufTy).Contents (Elt Ideal) :=
  broadcastInDim S800000x1 ![0] bcast_S800000_S800000x1_0 d

/-- The number of edges arriving at each node, at least one. -/
def degree (d : NodeIds) : (⟨S50000, .f32⟩ : BufTy).Contents (Elt Ideal) :=
  maximumf
    (Host.scatterAdd (F := Ideal) scatter_S50000_S800000x1_S800000_n_0_0_1
      (broadcastInDim S50000 ![] bcast_S_S50000 (constant (F := Ideal) S_ .f32 0x00000000#32)) (col d)
      (broadcastInDim S800000 ![] bcast_S_S800000 (constant (F := Ideal) S_ .f32 0x3F800000#32)))
    (broadcastInDim S50000 ![] bcast_S_S50000 (constant (F := Ideal) S_ .f32 0x3F800000#32))

/-- The mean aggregate of 128-wide features. -/
def meanAgg128 (x : (⟨S50000x128, .f32⟩ : BufTy).Contents (Elt Ideal)) (s d : NodeIds) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (col d)
      (Host.gather gather_S50000x128_S800000x1_S800000x128_1_0_n_n_0_1_1128 x (wrapCol s)))
    (broadcastInDim S50000x128 ![0, 1] bcast_S50000x1_S50000x128_0_1
      (broadcastInDim S50000x1 ![0] bcast_S50000_S50000x1_0 (degree d)))

/-- The mean aggregate of 256-wide features. -/
def meanAgg256 (x : (⟨S50000x256, .f32⟩ : BufTy).Contents (Elt Ideal)) (s d : NodeIds) :
    (⟨S50000x256, .f32⟩ : BufTy).Contents (Elt Ideal) :=
  Host.divf (F := Ideal)
    (Host.scatterAdd (F := Ideal) scatter_S50000x256_S800000x1_S800000x256_1_0_0_1
      (broadcastInDim S50000x256 ![] bcast_S_S50000x256 (constant (F := Ideal) S_ .f32 0x00000000#32)) (col d)
      (Host.gather gather_S50000x256_S800000x1_S800000x256_1_0_n_n_0_1_1256 x (wrapCol s)))
    (broadcastInDim S50000x256 ![0, 1] bcast_S50000x1_S50000x256_0_1
      (broadcastInDim S50000x1 ![0] bcast_S50000_S50000x1_0 (degree d)))

/-! ## The whole network -/

/-- The first layer: 128 features in, 256 out, over the mean aggregate of the input features. -/
def layer1 (x : (⟨S50000x128, .f32⟩ : BufTy).Contents (Elt Ideal)) (e : Edges)
    (Wl Wr : (⟨S256x128, .f32⟩ : BufTy).Contents (Elt Ideal)) (b : (⟨S256, .f32⟩ : BufTy).Contents (Elt Ideal)) :
    (⟨S50000x256, .f32⟩ : BufTy).Contents (Elt Ideal) :=
  dense (meanAgg128 x (srcOf e) (dstOf e)) x Wl Wr (fun o => b (ix1 o))

/-- The second layer: 256 features in, 128 out, over the mean aggregate of the hidden features. -/
def layer2 (h : (⟨S50000x256, .f32⟩ : BufTy).Contents (Elt Ideal)) (e : Edges)
    (Wl Wr : (⟨S128x256, .f32⟩ : BufTy).Contents (Elt Ideal)) (b : (⟨S128, .f32⟩ : BufTy).Contents (Elt Ideal)) :
    (⟨S50000x128, .f32⟩ : BufTy).Contents (Elt Ideal) :=
  dense (meanAgg256 h (srcOf e) (dstOf e)) h Wl Wr (fun o => b (ix1 o))

/-- One graph through both layers. -/
def graphOut (x : (⟨S50000x128, .f32⟩ : BufTy).Contents (Elt Ideal)) (e : Edges)
    (W1l : (⟨S256x128, .f32⟩ : BufTy).Contents (Elt Ideal)) (b1 : (⟨S256, .f32⟩ : BufTy).Contents (Elt Ideal))
    (W1r : (⟨S256x128, .f32⟩ : BufTy).Contents (Elt Ideal))
    (W2l : (⟨S128x256, .f32⟩ : BufTy).Contents (Elt Ideal)) (b2 : (⟨S128, .f32⟩ : BufTy).Contents (Elt Ideal))
    (W2r : (⟨S128x256, .f32⟩ : BufTy).Contents (Elt Ideal)) : (⟨S50000x128, .f32⟩ : BufTy).Contents (Elt Ideal) :=
  layer2 (layer1 x e W1l W1r b1) e W2l W2r b2

/-- Both graphs, one result stacked on the other. -/
def twoGraphs (o0 o1 : (⟨S50000x128, .f32⟩ : BufTy).Contents (Elt Ideal)) : (⟨S100000x128, .f32⟩ : BufTy).Contents (Elt Ideal) :=
  concatenate S100000x128 0 [⟨S50000x128, o0⟩, ⟨S50000x128, o1⟩] concatenates_S50000x128_S50000x128_S100000x128_d0

end Cert.Sage

end
-- ==== Proof.KRun.lean ====
/-
  The kernel program's run, with its result named.

  The program is four tiled regions among stretches of host operations.  Every weakly fair execution of it ends, without a
  fault, in a state whose unscoped buffers hold the contents reached by folding the segments one after another from the
  launch memory: a host stretch applies its operations, a region replaces its output array by what its grid points wrote
  back and leaves every other buffer alone.  Read at the result buffer this gives the program's output as that fold's
  value there; read at an argument it gives the argument as launched, since nothing writes one.
-/
import proofs.«178188_j50740743635551_1_alg».proof.Proof.Gen.KernelIdeal.Frame

set_option maxRecDepth 16384

noncomputable section

namespace Cert.Sage.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting; the result buffer ends at the last
    boundary's contents and each argument array ends as launched. -/
theorem run_out : θ_run defs (onTc (τ := τ) (main (F := F))) ⟨m, fun _ => 0, ρ⟩ (fun r => ∀ c : Dev nD,
      r.2.mem ((c.tc : Thread nD τ).loc main_v92) = W9 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v92 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.Sage.K

end
-- ==== Proof.KStages.lean ====
/-
  What each segment boundary of the kernel program holds, at the buffers the next segment reads.

  The program's buffer contents are folded segment by segment from the launch memory: a stretch of host operations
  applies its operations in order; a tiled region replaces its output array and leaves every other buffer alone.  Read at
  one buffer, a stretch's fold is the composed value of the operations that feed that buffer, and a buffer that no
  operation of the stretch writes keeps what it held.  The facts below read each boundary at exactly the buffers the
  following segment takes as input: the neighbour aggregation of the features (a named function of the features and the
  edge list), the bias recast as a one-row array, the weights and edge lists as launched, and each earlier region's
  output carried along unchanged.
-/
import proofs.«178188_j50740743635551_1_alg».proof.Proof.Gen.KernelIdeal.Frame
import proofs.«178188_j50740743635551_1_alg».proof.Proof.SageGlue

import Idealize.ShloMosaic.Lib.StableHlo.Run

noncomputable section

namespace Cert.Sage.K

open Cert.KernelIdeal Cert.KernelIdeal.Gen Cert.Sage
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before region 0: the first stretch, from the launch memory -/

theorem W1_v22 : W1 m ρ c (Proc.devRef .tc main_v22) = meanAgg128 (m ((c.tc : Thread nD τ).loc main_arg0)) (srcOf (m ((c.tc : Thread nD τ).loc main_arg2))) (dstOf (m ((c.tc : Thread nD τ).loc main_arg2))) := by
  show StableHlo.after hostOps0 (W0 m ρ c) (Proc.devRef .tc main_v22) = _
  after_results_simp
  all_goals rfl
theorem W1_v23 : W1 m ρ c (Proc.devRef .tc main_v23) = shapeCast S1x256 (m ((c.tc : Thread nD τ).loc main_arg5)) shapeCasts_S256_S1x256 := by
  show StableHlo.after hostOps0 (W0 m ρ c) (Proc.devRef .tc main_v23) = _
  after_results_simp
  all_goals rfl
theorem W1_v1 : W1 m ρ c (Proc.devRef .tc main_v1) = srcOf (m ((c.tc : Thread nD τ).loc main_arg2)) := by
  show StableHlo.after hostOps0 (W0 m ρ c) (Proc.devRef .tc main_v1) = _
  after_results_simp
  all_goals rfl
theorem W1_v3 : W1 m ρ c (Proc.devRef .tc main_v3) = dstOf (m ((c.tc : Thread nD τ).loc main_arg2)) := by
  show StableHlo.after hostOps0 (W0 m ρ c) (Proc.devRef .tc main_v3) = _
  after_results_simp
  all_goals rfl
theorem W1_arg0 : W1 m ρ c (Proc.devRef .tc main_arg0) = (m ((c.tc : Thread nD τ).loc main_arg0)) := by
  show StableHlo.after hostOps0 (W0 m ρ c) (Proc.devRef .tc main_arg0) = _
  after_results_simp
  all_goals rfl
theorem W1_arg4 : W1 m ρ c (Proc.devRef .tc main_arg4) = (m ((c.tc : Thread nD τ).loc main_arg4)) := by
  show StableHlo.after hostOps0 (W0 m ρ c) (Proc.devRef .tc main_arg4) = _
  after_results_simp
  all_goals rfl
theorem W1_arg6 : W1 m ρ c (Proc.devRef .tc main_arg6) = (m ((c.tc : Thread nD τ).loc main_arg6)) := by
  show StableHlo.after hostOps0 (W0 m ρ c) (Proc.devRef .tc main_arg6) = _
  after_results_simp
  all_goals rfl
theorem W1_arg7 : W1 m ρ c (Proc.devRef .tc main_arg7) = (m ((c.tc : Thread nD τ).loc main_arg7)) := by
  show StableHlo.after hostOps0 (W0 m ρ c) (Proc.devRef .tc main_arg7) = _
  after_results_simp
  all_goals rfl
theorem W1_arg8 : W1 m ρ c (Proc.devRef .tc main_arg8) = (m ((c.tc : Thread nD τ).loc main_arg8)) := by
  show StableHlo.after hostOps0 (W0 m ρ c) (Proc.devRef .tc main_arg8) = _
  after_results_simp
  all_goals rfl
theorem W1_arg9 : W1 m ρ c (Proc.devRef .tc main_arg9) = (m ((c.tc : Thread nD τ).loc main_arg9)) := by
  show StableHlo.after hostOps0 (W0 m ρ c) (Proc.devRef .tc main_arg9) = _
  after_results_simp
  all_goals rfl
theorem W1_arg1 : W1 m ρ c (Proc.devRef .tc main_arg1) = (m ((c.tc : Thread nD τ).loc main_arg1)) := by
  show StableHlo.after hostOps0 (W0 m ρ c) (Proc.devRef .tc main_arg1) = _
  after_results_simp
  all_goals rfl
theorem W1_arg3 : W1 m ρ c (Proc.devRef .tc main_arg3) = (m ((c.tc : Thread nD τ).loc main_arg3)) := by
  show StableHlo.after hostOps0 (W0 m ρ c) (Proc.devRef .tc main_arg3) = _
  after_results_simp
  all_goals rfl
theorem W1_arg10 : W1 m ρ c (Proc.devRef .tc main_arg10) = (m ((c.tc : Thread nD τ).loc main_arg10)) := by
  show StableHlo.after hostOps0 (W0 m ρ c) (Proc.devRef .tc main_arg10) = _
  after_results_simp
  all_goals rfl
theorem W1_arg11 : W1 m ρ c (Proc.devRef .tc main_arg11) = (m ((c.tc : Thread nD τ).loc main_arg11)) := by
  show StableHlo.after hostOps0 (W0 m ρ c) (Proc.devRef .tc main_arg11) = _
  after_results_simp
  all_goals rfl
theorem W1_arg12 : W1 m ρ c (Proc.devRef .tc main_arg12) = (m ((c.tc : Thread nD τ).loc main_arg12)) := by
  show StableHlo.after hostOps0 (W0 m ρ c) (Proc.devRef .tc main_arg12) = _
  after_results_simp
  all_goals rfl
theorem W1_arg13 : W1 m ρ c (Proc.devRef .tc main_arg13) = (m ((c.tc : Thread nD τ).loc main_arg13)) := by
  show StableHlo.after hostOps0 (W0 m ρ c) (Proc.devRef .tc main_arg13) = _
  after_results_simp
  all_goals rfl
theorem W1_arg14 : W1 m ρ c (Proc.devRef .tc main_arg14) = (m ((c.tc : Thread nD τ).loc main_arg14)) := by
  show StableHlo.after hostOps0 (W0 m ρ c) (Proc.devRef .tc main_arg14) = _
  after_results_simp
  all_goals rfl
theorem W1_arg15 : W1 m ρ c (Proc.devRef .tc main_arg15) = (m ((c.tc : Thread nD τ).loc main_arg15)) := by
  show StableHlo.after hostOps0 (W0 m ρ c) (Proc.devRef .tc main_arg15) = _
  after_results_simp
  all_goals rfl

/-! ## After region 0: everything but its arrays is as before it -/

theorem W2_v1 : W2 m ρ c (Proc.devRef .tc main_v1) = srcOf (m ((c.tc : Thread nD τ).loc main_arg2)) :=
  (W2_of_ne m ρ c main_v1 (by decide)).trans (W1_v1 m ρ c)
theorem W2_v3 : W2 m ρ c (Proc.devRef .tc main_v3) = dstOf (m ((c.tc : Thread nD τ).loc main_arg2)) :=
  (W2_of_ne m ρ c main_v3 (by decide)).trans (W1_v3 m ρ c)
theorem W2_arg7 : W2 m ρ c (Proc.devRef .tc main_arg7) = (m ((c.tc : Thread nD τ).loc main_arg7)) :=
  (W2_of_ne m ρ c main_arg7 (by decide)).trans (W1_arg7 m ρ c)
theorem W2_arg8 : W2 m ρ c (Proc.devRef .tc main_arg8) = (m ((c.tc : Thread nD τ).loc main_arg8)) :=
  (W2_of_ne m ρ c main_arg8 (by decide)).trans (W1_arg8 m ρ c)
theorem W2_arg9 : W2 m ρ c (Proc.devRef .tc main_arg9) = (m ((c.tc : Thread nD τ).loc main_arg9)) :=
  (W2_of_ne m ρ c main_arg9 (by decide)).trans (W1_arg9 m ρ c)
theorem W2_arg1 : W2 m ρ c (Proc.devRef .tc main_arg1) = (m ((c.tc : Thread nD τ).loc main_arg1)) :=
  (W2_of_ne m ρ c main_arg1 (by decide)).trans (W1_arg1 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg10 : W2 m ρ c (Proc.devRef .tc main_arg10) = (m ((c.tc : Thread nD τ).loc main_arg10)) :=
  (W2_of_ne m ρ c main_arg10 (by decide)).trans (W1_arg10 m ρ c)
theorem W2_arg11 : W2 m ρ c (Proc.devRef .tc main_arg11) = (m ((c.tc : Thread nD τ).loc main_arg11)) :=
  (W2_of_ne m ρ c main_arg11 (by decide)).trans (W1_arg11 m ρ c)
theorem W2_arg12 : W2 m ρ c (Proc.devRef .tc main_arg12) = (m ((c.tc : Thread nD τ).loc main_arg12)) :=
  (W2_of_ne m ρ c main_arg12 (by decide)).trans (W1_arg12 m ρ c)
theorem W2_arg13 : W2 m ρ c (Proc.devRef .tc main_arg13) = (m ((c.tc : Thread nD τ).loc main_arg13)) :=
  (W2_of_ne m ρ c main_arg13 (by decide)).trans (W1_arg13 m ρ c)
theorem W2_arg14 : W2 m ρ c (Proc.devRef .tc main_arg14) = (m ((c.tc : Thread nD τ).loc main_arg14)) :=
  (W2_of_ne m ρ c main_arg14 (by decide)).trans (W1_arg14 m ρ c)
theorem W2_arg15 : W2 m ρ c (Proc.devRef .tc main_arg15) = (m ((c.tc : Thread nD τ).loc main_arg15)) :=
  (W2_of_ne m ρ c main_arg15 (by decide)).trans (W1_arg15 m ρ c)

/-! ## Before region 1: the second stretch aggregates region 0's output -/

theorem W3_v43 : W3 m ρ c (Proc.devRef .tc main_v43) = meanAgg256 (W2 m ρ c (Proc.devRef .tc main_v24)) (srcOf (m ((c.tc : Thread nD τ).loc main_arg2))) (dstOf (m ((c.tc : Thread nD τ).loc main_arg2))) := by
  show StableHlo.after hostOps1 (W2 m ρ c) (Proc.devRef .tc main_v43) = _
  after_results_simp
  all_goals (rw [W2_v1, W2_v3]; rfl)
theorem W3_v44 : W3 m ρ c (Proc.devRef .tc main_v44) = shapeCast S1x128 (m ((c.tc : Thread nD τ).loc main_arg8)) shapeCasts_S128_S1x128 := by
  show StableHlo.after hostOps1 (W2 m ρ c) (Proc.devRef .tc main_v44) = _
  after_results_simp
  all_goals (rw [W2_arg8]; rfl)
theorem W3_v24 : W3 m ρ c (Proc.devRef .tc main_v24) = W2 m ρ c (Proc.devRef .tc main_v24) := by
  show StableHlo.after hostOps1 (W2 m ρ c) (Proc.devRef .tc main_v24) = _
  after_results_simp
  all_goals rfl
theorem W3_arg7 : W3 m ρ c (Proc.devRef .tc main_arg7) = (m ((c.tc : Thread nD τ).loc main_arg7)) := by
  show StableHlo.after hostOps1 (W2 m ρ c) (Proc.devRef .tc main_arg7) = _
  after_results_simp
  all_goals exact W2_arg7 m ρ c
theorem W3_arg9 : W3 m ρ c (Proc.devRef .tc main_arg9) = (m ((c.tc : Thread nD τ).loc main_arg9)) := by
  show StableHlo.after hostOps1 (W2 m ρ c) (Proc.devRef .tc main_arg9) = _
  after_results_simp
  all_goals exact W2_arg9 m ρ c
theorem W3_arg1 : W3 m ρ c (Proc.devRef .tc main_arg1) = (m ((c.tc : Thread nD τ).loc main_arg1)) := by
  show StableHlo.after hostOps1 (W2 m ρ c) (Proc.devRef .tc main_arg1) = _
  after_results_simp
  all_goals exact W2_arg1 m ρ c
theorem W3_arg3 : W3 m ρ c (Proc.devRef .tc main_arg3) = (m ((c.tc : Thread nD τ).loc main_arg3)) := by
  show StableHlo.after hostOps1 (W2 m ρ c) (Proc.devRef .tc main_arg3) = _
  after_results_simp
  all_goals exact W2_arg3 m ρ c
theorem W3_arg10 : W3 m ρ c (Proc.devRef .tc main_arg10) = (m ((c.tc : Thread nD τ).loc main_arg10)) := by
  show StableHlo.after hostOps1 (W2 m ρ c) (Proc.devRef .tc main_arg10) = _
  after_results_simp
  all_goals exact W2_arg10 m ρ c
theorem W3_arg11 : W3 m ρ c (Proc.devRef .tc main_arg11) = (m ((c.tc : Thread nD τ).loc main_arg11)) := by
  show StableHlo.after hostOps1 (W2 m ρ c) (Proc.devRef .tc main_arg11) = _
  after_results_simp
  all_goals exact W2_arg11 m ρ c
theorem W3_arg12 : W3 m ρ c (Proc.devRef .tc main_arg12) = (m ((c.tc : Thread nD τ).loc main_arg12)) := by
  show StableHlo.after hostOps1 (W2 m ρ c) (Proc.devRef .tc main_arg12) = _
  after_results_simp
  all_goals exact W2_arg12 m ρ c
theorem W3_arg13 : W3 m ρ c (Proc.devRef .tc main_arg13) = (m ((c.tc : Thread nD τ).loc main_arg13)) := by
  show StableHlo.after hostOps1 (W2 m ρ c) (Proc.devRef .tc main_arg13) = _
  after_results_simp
  all_goals exact W2_arg13 m ρ c
theorem W3_arg14 : W3 m ρ c (Proc.devRef .tc main_arg14) = (m ((c.tc : Thread nD τ).loc main_arg14)) := by
  show StableHlo.after hostOps1 (W2 m ρ c) (Proc.devRef .tc main_arg14) = _
  after_results_simp
  all_goals exact W2_arg14 m ρ c
theorem W3_arg15 : W3 m ρ c (Proc.devRef .tc main_arg15) = (m ((c.tc : Thread nD τ).loc main_arg15)) := by
  show StableHlo.after hostOps1 (W2 m ρ c) (Proc.devRef .tc main_arg15) = _
  after_results_simp
  all_goals exact W2_arg15 m ρ c

/-! ## After region 1 -/

theorem W4_arg1 : W4 m ρ c (Proc.devRef .tc main_arg1) = (m ((c.tc : Thread nD τ).loc main_arg1)) :=
  (W4_of_ne m ρ c main_arg1 (by decide)).trans (W3_arg1 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg10 : W4 m ρ c (Proc.devRef .tc main_arg10) = (m ((c.tc : Thread nD τ).loc main_arg10)) :=
  (W4_of_ne m ρ c main_arg10 (by decide)).trans (W3_arg10 m ρ c)
theorem W4_arg11 : W4 m ρ c (Proc.devRef .tc main_arg11) = (m ((c.tc : Thread nD τ).loc main_arg11)) :=
  (W4_of_ne m ρ c main_arg11 (by decide)).trans (W3_arg11 m ρ c)
theorem W4_arg12 : W4 m ρ c (Proc.devRef .tc main_arg12) = (m ((c.tc : Thread nD τ).loc main_arg12)) :=
  (W4_of_ne m ρ c main_arg12 (by decide)).trans (W3_arg12 m ρ c)
theorem W4_arg13 : W4 m ρ c (Proc.devRef .tc main_arg13) = (m ((c.tc : Thread nD τ).loc main_arg13)) :=
  (W4_of_ne m ρ c main_arg13 (by decide)).trans (W3_arg13 m ρ c)
theorem W4_arg14 : W4 m ρ c (Proc.devRef .tc main_arg14) = (m ((c.tc : Thread nD τ).loc main_arg14)) :=
  (W4_of_ne m ρ c main_arg14 (by decide)).trans (W3_arg14 m ρ c)
theorem W4_arg15 : W4 m ρ c (Proc.devRef .tc main_arg15) = (m ((c.tc : Thread nD τ).loc main_arg15)) :=
  (W4_of_ne m ρ c main_arg15 (by decide)).trans (W3_arg15 m ρ c)

/-! ## Before region 2: the third stretch, the second graph's first aggregation -/

theorem W5_v68 : W5 m ρ c (Proc.devRef .tc main_v68) = meanAgg128 (m ((c.tc : Thread nD τ).loc main_arg1)) (srcOf (m ((c.tc : Thread nD τ).loc main_arg3))) (dstOf (m ((c.tc : Thread nD τ).loc main_arg3))) := by
  show StableHlo.after hostOps2 (W4 m ρ c) (Proc.devRef .tc main_v68) = _
  after_results_simp
  all_goals (rw [W4_arg1, W4_arg3]; rfl)
theorem W5_v69 : W5 m ρ c (Proc.devRef .tc main_v69) = shapeCast S1x256 (m ((c.tc : Thread nD τ).loc main_arg11)) shapeCasts_S256_S1x256 := by
  show StableHlo.after hostOps2 (W4 m ρ c) (Proc.devRef .tc main_v69) = _
  after_results_simp
  all_goals (rw [W4_arg11]; rfl)
theorem W5_v47 : W5 m ρ c (Proc.devRef .tc main_v47) = srcOf (m ((c.tc : Thread nD τ).loc main_arg3)) := by
  show StableHlo.after hostOps2 (W4 m ρ c) (Proc.devRef .tc main_v47) = _
  after_results_simp
  all_goals (rw [W4_arg3]; rfl)
theorem W5_v49 : W5 m ρ c (Proc.devRef .tc main_v49) = dstOf (m ((c.tc : Thread nD τ).loc main_arg3)) := by
  show StableHlo.after hostOps2 (W4 m ρ c) (Proc.devRef .tc main_v49) = _
  after_results_simp
  all_goals (rw [W4_arg3]; rfl)
theorem W5_arg1 : W5 m ρ c (Proc.devRef .tc main_arg1) = (m ((c.tc : Thread nD τ).loc main_arg1)) := by
  show StableHlo.after hostOps2 (W4 m ρ c) (Proc.devRef .tc main_arg1) = _
  after_results_simp
  all_goals exact W4_arg1 m ρ c
theorem W5_arg10 : W5 m ρ c (Proc.devRef .tc main_arg10) = (m ((c.tc : Thread nD τ).loc main_arg10)) := by
  show StableHlo.after hostOps2 (W4 m ρ c) (Proc.devRef .tc main_arg10) = _
  after_results_simp
  all_goals exact W4_arg10 m ρ c
theorem W5_arg12 : W5 m ρ c (Proc.devRef .tc main_arg12) = (m ((c.tc : Thread nD τ).loc main_arg12)) := by
  show StableHlo.after hostOps2 (W4 m ρ c) (Proc.devRef .tc main_arg12) = _
  after_results_simp
  all_goals exact W4_arg12 m ρ c
theorem W5_arg13 : W5 m ρ c (Proc.devRef .tc main_arg13) = (m ((c.tc : Thread nD τ).loc main_arg13)) := by
  show StableHlo.after hostOps2 (W4 m ρ c) (Proc.devRef .tc main_arg13) = _
  after_results_simp
  all_goals exact W4_arg13 m ρ c
theorem W5_arg14 : W5 m ρ c (Proc.devRef .tc main_arg14) = (m ((c.tc : Thread nD τ).loc main_arg14)) := by
  show StableHlo.after hostOps2 (W4 m ρ c) (Proc.devRef .tc main_arg14) = _
  after_results_simp
  all_goals exact W4_arg14 m ρ c
theorem W5_arg15 : W5 m ρ c (Proc.devRef .tc main_arg15) = (m ((c.tc : Thread nD τ).loc main_arg15)) := by
  show StableHlo.after hostOps2 (W4 m ρ c) (Proc.devRef .tc main_arg15) = _
  after_results_simp
  all_goals exact W4_arg15 m ρ c
theorem W5_v45 : W5 m ρ c (Proc.devRef .tc main_v45) = W4 m ρ c (Proc.devRef .tc main_v45) := by
  show StableHlo.after hostOps2 (W4 m ρ c) (Proc.devRef .tc main_v45) = _
  after_results_simp
  all_goals rfl

/-! ## After region 2 -/

theorem W6_v47 : W6 m ρ c (Proc.devRef .tc main_v47) = srcOf (m ((c.tc : Thread nD τ).loc main_arg3)) :=
  (W6_of_ne m ρ c main_v47 (by decide)).trans (W5_v47 m ρ c)
theorem W6_v49 : W6 m ρ c (Proc.devRef .tc main_v49) = dstOf (m ((c.tc : Thread nD τ).loc main_arg3)) :=
  (W6_of_ne m ρ c main_v49 (by decide)).trans (W5_v49 m ρ c)
theorem W6_arg13 : W6 m ρ c (Proc.devRef .tc main_arg13) = (m ((c.tc : Thread nD τ).loc main_arg13)) :=
  (W6_of_ne m ρ c main_arg13 (by decide)).trans (W5_arg13 m ρ c)
theorem W6_arg14 : W6 m ρ c (Proc.devRef .tc main_arg14) = (m ((c.tc : Thread nD τ).loc main_arg14)) :=
  (W6_of_ne m ρ c main_arg14 (by decide)).trans (W5_arg14 m ρ c)
theorem W6_arg15 : W6 m ρ c (Proc.devRef .tc main_arg15) = (m ((c.tc : Thread nD τ).loc main_arg15)) :=
  (W6_of_ne m ρ c main_arg15 (by decide)).trans (W5_arg15 m ρ c)
theorem W6_v45 : W6 m ρ c (Proc.devRef .tc main_v45) = W4 m ρ c (Proc.devRef .tc main_v45) :=
  (W6_of_ne m ρ c main_v45 (by decide)).trans (W5_v45 m ρ c)

/-! ## Before region 3: the fourth stretch aggregates region 2's output -/

theorem W7_v89 : W7 m ρ c (Proc.devRef .tc main_v89) = meanAgg256 (W6 m ρ c (Proc.devRef .tc main_v70)) (srcOf (m ((c.tc : Thread nD τ).loc main_arg3))) (dstOf (m ((c.tc : Thread nD τ).loc main_arg3))) := by
  show StableHlo.after hostOps3 (W6 m ρ c) (Proc.devRef .tc main_v89) = _
  after_results_simp
  all_goals (rw [W6_v47, W6_v49]; rfl)
theorem W7_v90 : W7 m ρ c (Proc.devRef .tc main_v90) = shapeCast S1x128 (m ((c.tc : Thread nD τ).loc main_arg14)) shapeCasts_S128_S1x128 := by
  show StableHlo.after hostOps3 (W6 m ρ c) (Proc.devRef .tc main_v90) = _
  after_results_simp
  all_goals (rw [W6_arg14]; rfl)
theorem W7_v70 : W7 m ρ c (Proc.devRef .tc main_v70) = W6 m ρ c (Proc.devRef .tc main_v70) := by
  show StableHlo.after hostOps3 (W6 m ρ c) (Proc.devRef .tc main_v70) = _
  after_results_simp
  all_goals rfl
theorem W7_arg13 : W7 m ρ c (Proc.devRef .tc main_arg13) = (m ((c.tc : Thread nD τ).loc main_arg13)) := by
  show StableHlo.after hostOps3 (W6 m ρ c) (Proc.devRef .tc main_arg13) = _
  after_results_simp
  all_goals exact W6_arg13 m ρ c
theorem W7_arg15 : W7 m ρ c (Proc.devRef .tc main_arg15) = (m ((c.tc : Thread nD τ).loc main_arg15)) := by
  show StableHlo.after hostOps3 (W6 m ρ c) (Proc.devRef .tc main_arg15) = _
  after_results_simp
  all_goals exact W6_arg15 m ρ c
theorem W7_v45 : W7 m ρ c (Proc.devRef .tc main_v45) = W4 m ρ c (Proc.devRef .tc main_v45) := by
  show StableHlo.after hostOps3 (W6 m ρ c) (Proc.devRef .tc main_v45) = _
  after_results_simp
  all_goals exact W6_v45 m ρ c

/-! ## After region 3, and the last stretch: the two graphs' outputs stacked -/

theorem W8_v45 : W8 m ρ c (Proc.devRef .tc main_v45) = W4 m ρ c (Proc.devRef .tc main_v45) :=
  (W8_of_ne m ρ c main_v45 (by decide)).trans (W7_v45 m ρ c)
theorem W9_v92 : W9 m ρ c (Proc.devRef .tc main_v92) = twoGraphs (W4 m ρ c (Proc.devRef .tc main_v45)) (W8 m ρ c (Proc.devRef .tc main_v91)) := by
  show StableHlo.after hostOps4 (W8 m ρ c) (Proc.devRef .tc main_v92) = _
  after_results_simp
  all_goals (rw [W8_v45]; rfl)

end Cert.Sage.K

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KRegion02.lean ====
/-
  The kernel side, regions 0 and 2: what the tiled dense kernel leaves in its output array.

  Each of the two regions runs the same body on a grid of 25 points.  Point t loads rows 2000·t … 2000·t + 1999
  of the aggregated means and of the node features (blocks [2000, 128] at block index (t, 0)), the two weight
  matrices [256, 128] and the bias row [1, 256] whole (block index (0, 0)), and stores, into rows
  2000·t … 2000·t + 1999 of the output (block [2000, 256] at (t, 0)),

      tanh ( ( m · wlᵀ  +  x · wrᵀ )  +  bias row broadcast over the rows ).

  At the ideal values the roundings to bf16 are the identity and a product into the zero accumulator is the
  plain sum, so the body's value at the local index (p, q) is

      tanh ( ( Σ_k m(p,k) · wl(q,k)  +  Σ_k x(p,k) · wr(q,k) )  +  b(0,q) ),

  which depends on row p of the two row blocks only.  Row p of point t's blocks is row 2000·t + p of the whole
  arrays, so what point t writes back is block t of ONE function of the whole arrays — the layer's dense half
  `Cert.Sage.dense` — and since row r lies in the block of point r / 2000, the 25 blocks cover the output array,
  which therefore ends holding that function.  Nothing here uses finiteness of any input.
-/
import proofs.«178188_j50740743635551_1_alg».proof.Proof.Gen.KernelIdeal.Frame
import proofs.«178188_j50740743635551_1_alg».proof.Proof.SageSpec
import proofs.«178188_j50740743635551_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Sage.K

open Cert.KernelIdeal Cert.KernelIdeal.Gen Idealize.ShloMosaic Idealize.ShloMosaic.ValueIdx Idealize.SL.Sem
open Idealize.ShloMosaic.TcCoe

/-! # The layer from 128 features to 256: its lemmas -/
namespace R02

/-! ## The body's value at an index -/

/-- The printed dimension numbers are the plain "rows × contraction times contraction × columns". -/
theorem dot_plain : dot_S2000x128_S128x256_S2000x256_1_0_0_1_n_n = DotDims.plain 2000 128 256 := rfl

/-- One of the body's two products, read at (p, q): the block x times the TRANSPOSED weights w, into the zero
    accumulator, is Σ_k x(p,k) · w(q,k) — the roundings to bf16 are the identity at the ideal values, and the
    transposed matrix at (k, q) is w at (q, k). -/
theorem prod_apply (x : FVec Ideal S2000x128 .f32) (w : FVec Ideal S256x128 .f32) (p : Fin 2000) (q : Fin 256) :
    matmul dot_S2000x128_S128x256_S2000x256_1_0_0_1_n_n none (truncf .bf16 x bitsLt_bf16_f32)
        (transpose S128x256 [1, 0] (truncf .bf16 w bitsLt_bf16_f32) transposes_S256x128_p1_0_S128x256)
        (constant (F := Ideal) S2000x256 .f32 0x00000000#32) (ix2 p q)
      = ∑ k : Fin 128, x (ix2 p k) * w (ix2 q k) := by
  rw [dot_plain]
  refine (Cert.Lib.PlainDot.matmul_plain_zero_apply none _ _ p q).trans ?_
  refine Finset.sum_congr rfl fun k _ => ?_
  rw [transpose_ix2_apply]
  rfl

/-- The body's stored value at the local index (p, q), as a term of its five loaded blocks: the casts to the
    same shape are the identity, the sum of arrays and tanh act index by index, and the bias row broadcast over
    the rows reads its one row. -/
theorem k0_pay1_apply (x0 x1 : Vec Ideal S2000x128 .f32) (x2 x3 : Vec Ideal S256x128 .f32) (x4 : Vec Ideal S1x256 .f32)
    (p : Fin 2000) (q : Fin 256) :
    k0_pay1 x0 x1 x2 x3 x4 (ix2 p q)
      = Ideal.tanh (((∑ k : Fin 128, x0 (ix2 p k) * x2 (ix2 q k)) + ∑ k : Fin 128, x1 (ix2 p k) * x3 (ix2 q k))
          + x4 (ix2 (0 : Fin 1) q)) := by
  unfold k0_pay1
  dsimp only
  rw [shapeCast_self, shapeCast_self, shapeCast_self]
  show Ideal.tanh ((_ + _) + _) = _
  refine congrArg Ideal.tanh ?_
  refine congrArg₂ (fun a b : EReal => a + b)
    (congrArg₂ (fun a b : EReal => a + b) (prod_apply x0 x2 p q) (prod_apply x1 x3 p q)) ?_
  exact broadcastTo_1b_ab_apply _ _ p q

/-- Region 2's body is the same term of its loaded blocks as region 0's. -/
theorem k2_pay1_eq (x0 x1 : Vec Ideal S2000x128 .f32) (x2 x3 : Vec Ideal S256x128 .f32) (x4 : Vec Ideal S1x256 .f32) :
    k2_pay1 x0 x1 x2 x3 x4 = k0_pay1 x0 x1 x2 x3 x4 := rfl

/-- One block of 2000 rows: when row p of the two row blocks is row r of the whole arrays, and the weight and
    bias blocks agree with the whole weights and bias where the body reads them, the body's value at (p, q) is
    the layer's output at (r, q). -/
theorem block_apply (M X : FVec Ideal S50000x128 .f32) (Wl Wr : FVec Ideal S256x128 .f32) (B : FVec Ideal S1x256 .f32)
    (x0 x1 : Vec Ideal S2000x128 .f32) (x2 x3 : Vec Ideal S256x128 .f32) (x4 : Vec Ideal S1x256 .f32)
    (p : Fin 2000) (q : Fin 256) (r : Fin 50000)
    (h0 : ∀ k : Fin 128, x0 (ix2 p k) = M (ix2 r k)) (h1 : ∀ k : Fin 128, x1 (ix2 p k) = X (ix2 r k))
    (h2 : ∀ k : Fin 128, x2 (ix2 q k) = Wl (ix2 q k)) (h3 : ∀ k : Fin 128, x3 (ix2 q k) = Wr (ix2 q k))
    (h4 : x4 (ix2 (0 : Fin 1) q) = B (ix2 (0 : Fin 1) q)) :
    k0_pay1 x0 x1 x2 x3 x4 (ix2 p q) = Cert.Sage.dense M X Wl Wr (fun o => B (ix2 (0 : Fin 1) o)) (ix2 r q) := by
  rw [k0_pay1_apply, Cert.Sage.dense_ix2]
  unfold Cert.Sage.denseAt
  rw [h4]
  simp only [h0, h1, h2, h3]

/-- The zero offsets of a whole-buffer access, however they are spelt. -/
theorem hz : (![0, 0] : Fin 2 → Nat) = fun _ => 0 := funext fun a => by fin_cases a <;> rfl

-- the buffer contents when a region is entered: a variable throughout
variable (V : (c : Dev nD) → (b : Ref sig .tc) → Buf (Elt Ideal) ((c : Thread nD τ).loc b))

/-! ## Region 0 -/

/-- The printed index maps over the grid: the two row windows and the output window are at block (t, 0) at
    point t; the weights and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's dense half of the arrays the region finds in its five input windows. -/
abbrev G0 (c : Dev nD) : FVec Ideal S50000x256 .f32 :=
  Cert.Sage.dense (V c main_v22) (V c main_arg0) (V c main_arg4) (V c main_arg6) (fun o => V c main_v23 (ix2 (0 : Fin 1) o))

/-- What point t writes back is block t of the layer's output: the element at the local index (p, q) sits at
    row 2000·t + p, column q of the array (a block's coordinate is its block index times the block's size plus
    the coordinate inside the block), and each input block is read where the output's rows say. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S256x128) hz, View.ld_unit_zero (S := S1x256) hz]
  obtain ⟨e00, e01, e10, e11, e20, e21, e30, e31, e40, e41, e50, e51⟩ := idx_facts0 t
  have hN : cfg0.N = 25 := N_0
  have ht : t.val < 25 := hN ▸ t.isLt
  funext j
  obtain ⟨p, q, rfl⟩ : ∃ (p : Fin 2000) (q : Fin 256), j = ix2 p q := ⟨j 0, j 1, eq_ix2 j⟩
  have hp : p.val < 2000 := p.isLt
  have hq : q.val < 256 := q.isLt
  show k0_pay1 (iblk0 V c 0 t) (iblk0 V c 1 t) (iblk0 V c 2 t) (iblk0 V c 3 t) (iblk0 V c 4 t) (ix2 p q)
    = G0 V c (((cfg0.win 5).blk t).view.emb (ix2 p q))
  have hr : ((cfg0.win 5).blk t).view.emb (ix2 p q) = ix2 (⟨t.val * 2000 + p.val, by omega⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  rw [hr]
  refine block_apply (V c main_v22) (V c main_arg0) (V c main_arg4) (V c main_arg6) (V c main_v23) _ _ _ _ _ p q _
    ?_ ?_ ?_ ?_ ?_
  · intro k
    have hk : k.val < 128 := k.isLt
    show V c main_v22 (((cfg0.win 0).blk t).view.emb (ix2 p k)) = V c main_v22 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    have hk : k.val < 128 := k.isLt
    show V c main_arg0 (((cfg0.win 1).blk t).view.emb (ix2 p k)) = V c main_arg0 _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · intro k
    have hk : k.val < 128 := k.isLt
    show V c main_arg4 (((cfg0.win 2).blk t).view.emb (ix2 q k)) = V c main_arg4 _
    refine congrArg _ (funext fun a => Fin.ext ?_)
    match a with
    | ⟨0, _⟩ => show win0_2.index t (0 : Fin 2) * 256 + 1 * q.val = q.val; omega
    | ⟨1, _⟩ => show win0_2.index t (1 : Fin 2) * 128 + 1 * k.val = k.val; omega
  · intro k
    have hk : k.val < 128 := k.isLt
    show V c main_arg6 (((cfg0.win 3).blk t).view.emb (ix2 q k)) = V c main_arg6 _
    refine congrArg _ (funext fun a => Fin.ext ?_)
    match a with
    | ⟨0, _⟩ => show win0_3.index t (0 : Fin 2) * 256 + 1 * q.val = q.val; omega
    | ⟨1, _⟩ => show win0_3.index t (1 : Fin 2) * 128 + 1 * k.val = k.val; omega
  · show V c main_v23 (((cfg0.win 4).blk t).view.emb (ix2 (0 : Fin 1) q)) = V c main_v23 _
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega

/-- An index of the output array is in point t's block iff, on each axis, its coordinate is in the block's range. -/
theorem mem_blk0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v24).slice (win0_5.rect t)).set ↔ _
  rw [View.set_slice_whole, Rect.mem_set_unit]
  exact Iff.rfl

/-! ## Region 2 -/

/-- The printed index maps over the grid: the two row windows and the output window are at block (t, 0) at
    point t; the weights and the bias stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer's dense half of the arrays the region finds in its five input windows. -/
abbrev G2 (c : Dev nD) : FVec Ideal S50000x256 .f32 :=
  Cert.Sage.dense (V c main_v68) (V c main_arg1) (V c main_arg10) (V c main_arg12) (fun o => V c main_v69 (ix2 (0 : Fin 1) o))

/-- What point t writes back is block t of the layer's output: the element at the local index (p, q) sits at
    row 2000·t + p, column q of the array (a block's coordinate is its block index times the block's size plus
    the coordinate inside the block), and each input block is read where the output's rows say. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S256x128) hz, View.ld_unit_zero (S := S1x256) hz]
  obtain ⟨e00, e01, e10, e11, e20, e21, e30, e31, e40, e41, e50, e51⟩ := idx_facts2 t
  have hN : cfg2.N = 25 := N_2
  have ht : t.val < 25 := hN ▸ t.isLt
  funext j
  obtain ⟨p, q, rfl⟩ : ∃ (p : Fin 2000) (q : Fin 256), j = ix2 p q := ⟨j 0, j 1, eq_ix2 j⟩
  have hp : p.val < 2000 := p.isLt
  have hq : q.val < 256 := q.isLt
  show k2_pay1 (iblk2 V c 0 t) (iblk2 V c 1 t) (iblk2 V c 2 t) (iblk2 V c 3 t) (iblk2 V c 4 t) (ix2 p q)
    = G2 V c (((cfg2.win 5).blk t).view.emb (ix2 p q))
  have hr : ((cfg2.win 5).blk t).view.emb (ix2 p q) = ix2 (⟨t.val * 2000 + p.val, by omega⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  rw [hr, k2_pay1_eq]
  refine block_apply (V c main_v68) (V c main_arg1) (V c main_arg10) (V c main_arg12) (V c main_v69) _ _ _ _ _ p q _
    ?_ ?_ ?_ ?_ ?_
  · intro k
    have hk : k.val < 128 := k.isLt
    show V c main_v68 (((cfg2.win 0).blk t).view.emb (ix2 p k)) = V c main_v68 _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro k
    have hk : k.val < 128 := k.isLt
    show V c main_arg1 (((cfg2.win 1).blk t).view.emb (ix2 p k)) = V c main_arg1 _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · intro k
    have hk : k.val < 128 := k.isLt
    show V c main_arg10 (((cfg2.win 2).blk t).view.emb (ix2 q k)) = V c main_arg10 _
    refine congrArg _ (funext fun a => Fin.ext ?_)
    match a with
    | ⟨0, _⟩ => show win2_2.index t (0 : Fin 2) * 256 + 1 * q.val = q.val; omega
    | ⟨1, _⟩ => show win2_2.index t (1 : Fin 2) * 128 + 1 * k.val = k.val; omega
  · intro k
    have hk : k.val < 128 := k.isLt
    show V c main_arg12 (((cfg2.win 3).blk t).view.emb (ix2 q k)) = V c main_arg12 _
    refine congrArg _ (funext fun a => Fin.ext ?_)
    match a with
    | ⟨0, _⟩ => show win2_3.index t (0 : Fin 2) * 256 + 1 * q.val = q.val; omega
    | ⟨1, _⟩ => show win2_3.index t (1 : Fin 2) * 128 + 1 * k.val = k.val; omega
  · show V c main_v69 (((cfg2.win 4).blk t).view.emb (ix2 (0 : Fin 1) q)) = V c main_v69 _
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * q.val = q.val; omega

/-- An index of the output array is in point t's block iff, on each axis, its coordinate is in the block's range. -/
theorem mem_blk2 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v70).slice (win2_5.rect t)).set ↔ _
  rw [View.set_slice_whole, Rect.mem_set_unit]
  exact Iff.rfl

end R02

open R02

/-! ## The two output arrays after their regions -/

-- the buffer contents when a region is entered: a variable throughout
variable (V : (c : Dev nD) → (b : Ref sig .tc) → Buf (Elt Ideal) ((c : Thread nD τ).loc b))

/-- Row r of the output array is written back by point r / 2000, so the 25 blocks cover the array and it ends
    holding the layer's output. -/
theorem final0 (c : Dev nD) :
    (dat0 (F := Ideal) V c).arrAt 5 cfg0.N
      = Cert.Sage.dense (V c main_v22) (V c main_arg0) (V c main_arg4) (V c main_arg6) (fun o => V c main_v23 (ix2 (0 : Fin 1) o)) :=
  (dat0 (F := Ideal) V c).arrAt_eq_of_cover 5 (G0 V c) (fun t _ => flushed0_eq V c t) fun i => by
    have hi0 : (i 0).val < 50000 := (i 0).isLt
    have hi1 : (i 1).val < 256 := (i 1).isLt
    have hN : cfg0.N = 25 := N_0
    have ht : (i 0).val / 2000 < cfg0.N := by rw [hN]; omega
    obtain ⟨-, -, -, -, -, -, -, -, -, -, e50, e51⟩ := idx_facts0 ⟨(i 0).val / 2000, ht⟩
    have e50' : win0_5.index ⟨(i 0).val / 2000, ht⟩ (0 : Fin 2) = (i 0).val / 2000 := e50
    refine ⟨⟨(i 0).val / 2000, ht⟩, flush0_5 _, ?_⟩
    rw [mem_blk0]
    intro a
    match a with
    | ⟨0, _⟩ =>
      show win0_5.index ⟨(i 0).val / 2000, ht⟩ (0 : Fin 2) * 2000 ≤ (i 0).val
        ∧ (i 0).val < win0_5.index ⟨(i 0).val / 2000, ht⟩ (0 : Fin 2) * 2000 + 2000
      omega
    | ⟨1, _⟩ =>
      show win0_5.index ⟨(i 0).val / 2000, ht⟩ (1 : Fin 2) * 256 ≤ (i 1).val
        ∧ (i 1).val < win0_5.index ⟨(i 0).val / 2000, ht⟩ (1 : Fin 2) * 256 + 256
      omega

/-- Row r of the output array is written back by point r / 2000, so the 25 blocks cover the array and it ends
    holding the layer's output. -/
theorem final2 (c : Dev nD) :
    (dat2 (F := Ideal) V c).arrAt 5 cfg2.N
      = Cert.Sage.dense (V c main_v68) (V c main_arg1) (V c main_arg10) (V c main_arg12) (fun o => V c main_v69 (ix2 (0 : Fin 1) o)) :=
  (dat2 (F := Ideal) V c).arrAt_eq_of_cover 5 (G2 V c) (fun t _ => flushed2_eq V c t) fun i => by
    have hi0 : (i 0).val < 50000 := (i 0).isLt
    have hi1 : (i 1).val < 256 := (i 1).isLt
    have hN : cfg2.N = 25 := N_2
    have ht : (i 0).val / 2000 < cfg2.N := by rw [hN]; omega
    obtain ⟨-, -, -, -, -, -, -, -, -, -, e50, e51⟩ := idx_facts2 ⟨(i 0).val / 2000, ht⟩
    have e50' : win2_5.index ⟨(i 0).val / 2000, ht⟩ (0 : Fin 2) = (i 0).val / 2000 := e50
    refine ⟨⟨(i 0).val / 2000, ht⟩, flush2_5 _, ?_⟩
    rw [mem_blk2]
    intro a
    match a with
    | ⟨0, _⟩ =>
      show win2_5.index ⟨(i 0).val / 2000, ht⟩ (0 : Fin 2) * 2000 ≤ (i 0).val
        ∧ (i 0).val < win2_5.index ⟨(i 0).val / 2000, ht⟩ (0 : Fin 2) * 2000 + 2000
      omega
    | ⟨1, _⟩ =>
      show win2_5.index ⟨(i 0).val / 2000, ht⟩ (1 : Fin 2) * 256 ≤ (i 1).val
        ∧ (i 1).val < win2_5.index ⟨(i 0).val / 2000, ht⟩ (1 : Fin 2) * 256 + 256
      omega

end Cert.Sage.K

end
-- ==== Proof.KRegion13.lean ====
/-
  The kernel's side of the dense half of a GraphSAGE layer, for the two launches whose inputs are 256 wide and
  whose output is 128 wide.

  Each launch runs one body on 25 grid points.  Point t loads rows 2000 t … 2000 t + 1999 of the aggregated
  means and of the node features, the two weight matrices and the bias whole, and stores, for each of its rows p
  and each output feature q,

      tanh ( ( Σ_k m(p,k) · Wl(q,k)  +  Σ_k x(p,k) · Wr(q,k) )  +  b(q) ) :

  the two matrix products are taken with the transposed weights into a zero accumulator, so at an index each is a
  plain sum over the contraction axis; narrowing the operands to bf16 is the identity on extended reals; the bias
  row is broadcast over the 2000 rows.  A row of a matrix product depends on that row of the left factor only, so
  what point t stores is rows 2000 t … 2000 t + 1999 of the layer's whole output array.  The 25 blocks of 2000
  rows cover all 50000 rows (row r lies in block r / 2000), so after the launch the output array is the layer's
  output as one function of the arrays the launch found.  Nothing is assumed about those arrays.
-/
import proofs.«178188_j50740743635551_1_alg».proof.Proof.Gen.KernelIdeal.Frame
import proofs.«178188_j50740743635551_1_alg».proof.Proof.SageSpec
import proofs.«178188_j50740743635551_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Cert.KernelIdeal Cert.KernelIdeal.Gen Idealize.ShloMosaic Idealize.ShloMosaic.ValueIdx Idealize.SL.Sem
open Idealize.ShloMosaic.TcCoe
open Idealize.ShloMosaic.Pipeline (Dat)

/-! # The layer from 256 features to 128: its lemmas -/

namespace Cert.Sage.K.L2

/-- The printed dimension numbers are the plain ones: rows by contraction times contraction by columns. -/
theorem dims_eq_plain : dot_S2000x256_S256x128_S2000x128_1_0_0_1_n_n = DotDims.plain 2000 256 128 := rfl

/-- A block of rows times a transposed weight matrix, into the zero accumulator, at (p, q): the sum over k of
    x (p, k) * w (q, k). -/
theorem mm_apply (x : FVec Ideal S2000x256 .bf16) (w : FVec Ideal S128x256 .bf16) (p : Fin 2000) (q : Fin 128) :
    matmul dot_S2000x256_S256x128_S2000x128_1_0_0_1_n_n none x
        (transpose S256x128 [1, 0] w transposes_S128x256_p1_0_S256x128)
        (constant (F := Ideal) S2000x128 .f32 0x00000000#32) (ix2 p q)
      = ∑ k : Fin 256, x (ix2 p k) * w (ix2 q k) := by
  rw [dims_eq_plain]
  refine (Cert.Lib.PlainDot.matmul_plain_zero_apply none x _ p q).trans ?_
  refine Finset.sum_congr rfl fun k _ => ?_
  exact congrArg (fun z : EReal => x (ix2 p k) * z) (transpose_ix2_apply w transposes_S128x256_p1_0_S256x128 k q)

/-- The body's value at row p and output feature q of its block: the two products with the transposed weights,
    added, plus the bias, through tanh.  (Narrowing to bf16 is the identity on extended reals.) -/
theorem pay1_apply (x0 x1 : Vec Ideal S2000x256 .f32) (x2 x3 : Vec Ideal S128x256 .f32) (x4 : Vec Ideal S1x128 .f32)
    (p : Fin 2000) (q : Fin 128) :
    k1_pay1 x0 x1 x2 x3 x4 (ix2 p q)
      = Ideal.tanh (((∑ k : Fin 256, x0 (ix2 p k) * x2 (ix2 q k)) + ∑ k : Fin 256, x1 (ix2 p k) * x3 (ix2 q k))
          + x4 (ix2 (0 : Fin 1) q)) := by
  unfold k1_pay1
  simp only [shapeCast_self]
  refine congrArg Ideal.tanh ?_
  refine congrArg₂ (fun a b : EReal => a + b) (congrArg₂ (fun a b : EReal => a + b) ?_ ?_) ?_
  · exact mm_apply _ _ p q
  · exact mm_apply _ _ p q
  · exact broadcastTo_1b_ab_apply x4 broadcasts_S1x128_S2000x128 p q

/-- The same for region 3's copy of the body. -/
theorem pay3_apply (x0 x1 : Vec Ideal S2000x256 .f32) (x2 x3 : Vec Ideal S128x256 .f32) (x4 : Vec Ideal S1x128 .f32)
    (p : Fin 2000) (q : Fin 128) :
    k3_pay1 x0 x1 x2 x3 x4 (ix2 p q)
      = Ideal.tanh (((∑ k : Fin 256, x0 (ix2 p k) * x2 (ix2 q k)) + ∑ k : Fin 256, x1 (ix2 p k) * x3 (ix2 q k))
          + x4 (ix2 (0 : Fin 1) q)) := by
  unfold k3_pay1
  simp only [shapeCast_self]
  refine congrArg Ideal.tanh ?_
  refine congrArg₂ (fun a b : EReal => a + b) (congrArg₂ (fun a b : EReal => a + b) ?_ ?_) ?_
  · exact mm_apply _ _ p q
  · exact mm_apply _ _ p q
  · exact broadcastTo_1b_ab_apply x4 broadcasts_S1x128_S2000x128 p q

/-- A row of the layer's output depends on that row of the means and of the features only: when row p of the two
    loaded blocks is row r of the whole arrays, and the weights and the bias are loaded whole, the body's value at
    (p, q) is the layer's output at (r, q). -/
theorem block_value1 (M X : FVec Ideal S50000x256 .f32) (Wl Wr : FVec Ideal S128x256 .f32) (B : FVec Ideal S1x128 .f32)
    (x0 x1 : Vec Ideal S2000x256 .f32) (x2 x3 : Vec Ideal S128x256 .f32) (x4 : Vec Ideal S1x128 .f32)
    (p : Fin 2000) (q : Fin 128) (r : Fin 50000) (y : S2000x128.Idx) (i : S50000x128.Idx)
    (hy : y = ix2 p q) (hi : i = ix2 r q)
    (h0 : ∀ k : Fin 256, x0 (ix2 p k) = M (ix2 r k)) (h1 : ∀ k : Fin 256, x1 (ix2 p k) = X (ix2 r k))
    (h2 : x2 = Wl) (h3 : x3 = Wr) (h4 : x4 = B) :
    k1_pay1 x0 x1 x2 x3 x4 y = Cert.Sage.dense M X Wl Wr (fun o => B (ix2 (0 : Fin 1) o)) i := by
  subst hy hi h2 h3 h4
  refine (pay1_apply x0 x1 x2 x3 x4 p q).trans ?_
  refine Eq.trans ?_ (Cert.Sage.dense_ix2 M X x2 x3 (fun o => x4 (ix2 (0 : Fin 1) o)) r q).symm
  unfold Cert.Sage.denseAt
  simp only [h0, h1]

theorem block_value3 (M X : FVec Ideal S50000x256 .f32) (Wl Wr : FVec Ideal S128x256 .f32) (B : FVec Ideal S1x128 .f32)
    (x0 x1 : Vec Ideal S2000x256 .f32) (x2 x3 : Vec Ideal S128x256 .f32) (x4 : Vec Ideal S1x128 .f32)
    (p : Fin 2000) (q : Fin 128) (r : Fin 50000) (y : S2000x128.Idx) (i : S50000x128.Idx)
    (hy : y = ix2 p q) (hi : i = ix2 r q)
    (h0 : ∀ k : Fin 256, x0 (ix2 p k) = M (ix2 r k)) (h1 : ∀ k : Fin 256, x1 (ix2 p k) = X (ix2 r k))
    (h2 : x2 = Wl) (h3 : x3 = Wr) (h4 : x4 = B) :
    k3_pay1 x0 x1 x2 x3 x4 y = Cert.Sage.dense M X Wl Wr (fun o => B (ix2 (0 : Fin 1) o)) i := by
  subst hy hi h2 h3 h4
  refine (pay3_apply x0 x1 x2 x3 x4 p q).trans ?_
  refine Eq.trans ?_ (Cert.Sage.dense_ix2 M X x2 x3 (fun o => x4 (ix2 (0 : Fin 1) o)) r q).symm
  unfold Cert.Sage.denseAt
  simp only [h0, h1]

theorem zero_offsets : (![0, 0] : Fin 2 → Nat) = fun _ => 0 := funext fun a => by fin_cases a <;> rfl

/-! ## Region 1 -/

section Region1

variable (V : (c : Dev nD) → (b : Ref sig .tc) → Buf (Elt Ideal) ((c : Thread nD τ).loc b))

/-- The printed index maps, decided once over the 25 grid points: the two row-blocked inputs and the output sit at
    block (t, 0), the weights and the bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the layer's output is in terms of the buffers the region finds. -/
abbrev G1 (c : Dev nD) : FVec Ideal S50000x128 .f32 :=
  Cert.Sage.dense (V c main_v43) (V c main_v24) (V c main_arg7) (V c main_arg9) (fun o => V c main_v44 (ix2 (0 : Fin 1) o))

/-- What point t writes back is rows 2000 t … 2000 t + 1999 of the layer's output. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero zero_offsets]
  simp only [View.ld_unit_zero (S := S2000x256) zero_offsets, View.ld_unit_zero (S := S128x256) zero_offsets, View.ld_unit_zero (S := S1x128) zero_offsets]
  obtain ⟨e00, e01, e10, e11, e20, e21, e30, e31, e40, e41, e50, e51⟩ := idx_facts1 t
  have hN : t.val < 25 := lt_of_lt_of_eq t.isLt N_1
  funext j
  have hp : (j 0).val < 2000 := (j 0).isLt
  have hq : (j 1).val < 128 := (j 1).isLt
  rw [View.read_apply]
  refine block_value1 (V c main_v43) (V c main_v24) (V c main_arg7) (V c main_arg9) (V c main_v44)
    (iblk1 V c 0 t) (iblk1 V c 1 t) (iblk1 V c 2 t) (iblk1 V c 3 t) (iblk1 V c 4 t)
    ⟨(j 0).val, hp⟩ ⟨(j 1).val, hq⟩ ⟨2000 * t.val + (j 0).val, by omega⟩
    ((cfg1.win 5).xinj (grid1.coords t) j) (((cfg1.win 5).blk t).view.emb j) ?_ ?_ ?_ ?_ ?_ ?_ ?_
  · exact funext fun a => match a with | ⟨0, _⟩ => rfl | ⟨1, _⟩ => rfl
  · refine funext fun a => Fin.ext ?_
    match a with
    | ⟨0, _⟩ => show win1_5.index t (0 : Fin 2) * 2000 + 1 * (j 0).val = 2000 * t.val + (j 0).val; omega
    | ⟨1, _⟩ => show win1_5.index t (1 : Fin 2) * 128 + 1 * (j 1).val = (j 1).val; omega
  · intro k
    unfold iblk1
    rw [View.read_apply]
    show V c main_v43 (((cfg1.win 0).blk t).view.emb _) = V c main_v43 _
    refine congrArg (V c main_v43) (funext fun a => Fin.ext ?_)
    match a with
    | ⟨0, _⟩ => show win1_0.index t (0 : Fin 2) * 2000 + 1 * (j 0).val = 2000 * t.val + (j 0).val; omega
    | ⟨1, _⟩ => show win1_0.index t (1 : Fin 2) * 256 + 1 * k.val = k.val; omega
  · intro k
    unfold iblk1
    rw [View.read_apply]
    show V c main_v24 (((cfg1.win 1).blk t).view.emb _) = V c main_v24 _
    refine congrArg (V c main_v24) (funext fun a => Fin.ext ?_)
    match a with
    | ⟨0, _⟩ => show win1_1.index t (0 : Fin 2) * 2000 + 1 * (j 0).val = 2000 * t.val + (j 0).val; omega
    | ⟨1, _⟩ => show win1_1.index t (1 : Fin 2) * 256 + 1 * k.val = k.val; omega
  · unfold iblk1
    funext y
    rw [View.read_apply]
    show V c main_arg7 (((cfg1.win 2).blk t).view.emb y) = V c main_arg7 y
    refine congrArg (V c main_arg7) (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  · unfold iblk1
    funext y
    rw [View.read_apply]
    show V c main_arg9 (((cfg1.win 3).blk t).view.emb y) = V c main_arg9 y
    refine congrArg (V c main_arg9) (funext fun a => Fin.ext ?_)
    match a with
    | ⟨0, _⟩ => show win1_3.index t (0 : Fin 2) * 128 + 1 * (y 0).val = (y 0).val; omega
    | ⟨1, _⟩ => show win1_3.index t (1 : Fin 2) * 256 + 1 * (y 1).val = (y 1).val; omega
  · unfold iblk1
    funext y
    rw [View.read_apply]
    show V c main_v44 (((cfg1.win 4).blk t).view.emb y) = V c main_v44 y
    refine congrArg (V c main_v44) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the output array is in point t's block iff each coordinate is in the block's range on its axis. -/
theorem mem_blk1 (t : Fin cfg1.N) (i : S50000x128.Idx) :
    i ∈ ((cfg1.win 5).blk t).view.set
      ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every row r of the output is written back by point r / 2000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, e50, e51⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

end Region1

/-! ## Region 3 -/

section Region3

variable (V : (c : Dev nD) → (b : Ref sig .tc) → Buf (Elt Ideal) ((c : Thread nD τ).loc b))

/-- The printed index maps, decided once over the 25 grid points: the two row-blocked inputs and the output sit at
    block (t, 0), the weights and the bias at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What the layer's output is in terms of the buffers the region finds. -/
abbrev G3 (c : Dev nD) : FVec Ideal S50000x128 .f32 :=
  Cert.Sage.dense (V c main_v89) (V c main_v70) (V c main_arg13) (V c main_arg15) (fun o => V c main_v90 (ix2 (0 : Fin 1) o))

/-- What point t writes back is rows 2000 t … 2000 t + 1999 of the layer's output. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero zero_offsets]
  simp only [View.ld_unit_zero (S := S2000x256) zero_offsets, View.ld_unit_zero (S := S128x256) zero_offsets, View.ld_unit_zero (S := S1x128) zero_offsets]
  obtain ⟨e00, e01, e10, e11, e20, e21, e30, e31, e40, e41, e50, e51⟩ := idx_facts3 t
  have hN : t.val < 25 := lt_of_lt_of_eq t.isLt N_3
  funext j
  have hp : (j 0).val < 2000 := (j 0).isLt
  have hq : (j 1).val < 128 := (j 1).isLt
  rw [View.read_apply]
  refine block_value3 (V c main_v89) (V c main_v70) (V c main_arg13) (V c main_arg15) (V c main_v90)
    (iblk3 V c 0 t) (iblk3 V c 1 t) (iblk3 V c 2 t) (iblk3 V c 3 t) (iblk3 V c 4 t)
    ⟨(j 0).val, hp⟩ ⟨(j 1).val, hq⟩ ⟨2000 * t.val + (j 0).val, by omega⟩
    ((cfg3.win 5).xinj (grid3.coords t) j) (((cfg3.win 5).blk t).view.emb j) ?_ ?_ ?_ ?_ ?_ ?_ ?_
  · exact funext fun a => match a with | ⟨0, _⟩ => rfl | ⟨1, _⟩ => rfl
  · refine funext fun a => Fin.ext ?_
    match a with
    | ⟨0, _⟩ => show win3_5.index t (0 : Fin 2) * 2000 + 1 * (j 0).val = 2000 * t.val + (j 0).val; omega
    | ⟨1, _⟩ => show win3_5.index t (1 : Fin 2) * 128 + 1 * (j 1).val = (j 1).val; omega
  · intro k
    unfold iblk3
    rw [View.read_apply]
    show V c main_v89 (((cfg3.win 0).blk t).view.emb _) = V c main_v89 _
    refine congrArg (V c main_v89) (funext fun a => Fin.ext ?_)
    match a with
    | ⟨0, _⟩ => show win3_0.index t (0 : Fin 2) * 2000 + 1 * (j 0).val = 2000 * t.val + (j 0).val; omega
    | ⟨1, _⟩ => show win3_0.index t (1 : Fin 2) * 256 + 1 * k.val = k.val; omega
  · intro k
    unfold iblk3
    rw [View.read_apply]
    show V c main_v70 (((cfg3.win 1).blk t).view.emb _) = V c main_v70 _
    refine congrArg (V c main_v70) (funext fun a => Fin.ext ?_)
    match a with
    | ⟨0, _⟩ => show win3_1.index t (0 : Fin 2) * 2000 + 1 * (j 0).val = 2000 * t.val + (j 0).val; omega
    | ⟨1, _⟩ => show win3_1.index t (1 : Fin 2) * 256 + 1 * k.val = k.val; omega
  · unfold iblk3
    funext y
    rw [View.read_apply]
    show V c main_arg13 (((cfg3.win 2).blk t).view.emb y) = V c main_arg13 y
    refine congrArg (V c main_arg13) (funext fun a => Fin.ext ?_)
    match a with
    | ⟨0, _⟩ => show win3_2.index t (0 : Fin 2) * 128 + 1 * (y 0).val = (y 0).val; omega
    | ⟨1, _⟩ => show win3_2.index t (1 : Fin 2) * 256 + 1 * (y 1).val = (y 1).val; omega
  · unfold iblk3
    funext y
    rw [View.read_apply]
    show V c main_arg15 (((cfg3.win 3).blk t).view.emb y) = V c main_arg15 y
    refine congrArg (V c main_arg15) (funext fun a => Fin.ext ?_)
    match a with
    | ⟨0, _⟩ => show win3_3.index t (0 : Fin 2) * 128 + 1 * (y 0).val = (y 0).val; omega
    | ⟨1, _⟩ => show win3_3.index t (1 : Fin 2) * 256 + 1 * (y 1).val = (y 1).val; omega
  · unfold iblk3
    funext y
    rw [View.read_apply]
    show V c main_v90 (((cfg3.win 4).blk t).view.emb y) = V c main_v90 y
    refine congrArg (V c main_v90) (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega

/-- An index of the output array is in point t's block iff each coordinate is in the block's range on its axis. -/
theorem mem_blk3 (t : Fin cfg3.N) (i : S50000x128.Idx) :
    i ∈ ((cfg3.win 5).blk t).view.set
      ↔ ∀ a : Fin 2, win3_5.index t a * S2000x128.size a ≤ (i a).val ∧ (i a).val < win3_5.index t a * S2000x128.size a + S2000x128.size a := by
  show i ∈ ((View.whole main_v91).slice (win3_5.rect t)).set ↔ _
  rw [View.set_slice_whole, Rect.mem_set_unit]
  exact Iff.rfl

/-- Every row r of the output is written back by point r / 2000. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, -, -, -, -, -, -, -, -, e50, e51⟩ := idx_facts3 t
  have ht : t.val = (i 0).val / 2000 := rfl
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

end Region3

end Cert.Sage.K.L2

/-! # The two launches' output arrays -/

namespace Cert.Sage.K

/-- After the first graph's launch the output array holds the layer's output of the buffers the launch found. -/
theorem final1 (V : (c : Dev nD) → (b : Ref sig .tc) → Buf (Elt Ideal) ((c : Thread nD τ).loc b)) (c : Dev nD) :
    (dat1 (F := Ideal) V c).arrAt 5 cfg1.N
      = Cert.Sage.dense (V c main_v43) (V c main_v24) (V c main_arg7) (V c main_arg9) (fun o => V c main_v44 (ix2 (0 : Fin 1) o)) :=
  (dat1 (F := Ideal) V c).arrAt_eq_of_cover 5 (L2.G1 V c) (fun t _ => L2.flushed1_eq V c t) L2.cover1

/-- After the second graph's launch the output array holds the layer's output of the buffers the launch found. -/
theorem final3 (V : (c : Dev nD) → (b : Ref sig .tc) → Buf (Elt Ideal) ((c : Thread nD τ).loc b)) (c : Dev nD) :
    (dat3 (F := Ideal) V c).arrAt 5 cfg3.N
      = Cert.Sage.dense (V c main_v89) (V c main_v70) (V c main_arg13) (V c main_arg15) (fun o => V c main_v90 (ix2 (0 : Fin 1) o)) :=
  (dat3 (F := Ideal) V c).arrAt_eq_of_cover 5 (L2.G3 V c) (fun t _ => L2.flushed3_eq V c t) L2.cover3

end Cert.Sage.K

end
-- ==== Proof.KValue.lean ====
/-
  The kernel program's result is the two-layer network of the specification, on both graphs.

  Each tiled region's output array is the layer function of the arrays the region finds on entry (the modules on the
  regions).  What it finds there is, by the boundary facts, the neighbour aggregation of the previous features, those
  features themselves, the two weights as launched, and the bias recast as a one-row array, whose entry (0, o) is the
  bias at o.  Composing the four regions with the stretches between them gives each graph's output as `graphOut` of
  its arguments, and the last host operation stacks the two.
-/
import proofs.«178188_j50740743635551_1_alg».proof.Proof.Gen.KernelIdeal.Frame
import proofs.«178188_j50740743635551_1_alg».proof.Proof.SageGlue
import proofs.«178188_j50740743635551_1_alg».proof.Proof.KRun
import proofs.«178188_j50740743635551_1_alg».proof.Proof.KStages
import proofs.«178188_j50740743635551_1_alg».proof.Proof.KRegion02
import proofs.«178188_j50740743635551_1_alg».proof.Proof.KRegion13
import Idealize.ShloMosaic.Lib.StableHlo.Run
import Idealize.ShloMosaic.Lib.ValueLayout

noncomputable section

namespace Cert.Sage.K

open Cert.KernelIdeal Cert.KernelIdeal.Gen Cert.Sage Idealize.ShloMosaic.ValueIdx
open Idealize.ShloMosaic Idealize.ShloMosaic.TcCoe Idealize.ShloMosaic.StableHlo Idealize.SL.Sem

variable (m : (ℓ : Loc nD τ sig) → Buf (Elt Ideal) ℓ) (ρ : Dev nD → PrngReg)

section AtCore
variable (c : Dev nD)

/-- A 256-vector recast as a one-row array, read at (0, o), is the vector at o. -/
theorem bias_row256 (b : (⟨S256, .f32⟩ : BufTy).Contents (Elt Ideal)) :
    (fun o : Fin 256 => shapeCast S1x256 b shapeCasts_S256_S1x256 (ix2 (0 : Fin 1) o)) = fun o => b (ix1 o) :=
  funext fun o => shapeCast_a_1a_apply b shapeCasts_S256_S1x256 0 o

/-- A 128-vector recast as a one-row array, read at (0, o), is the vector at o. -/
theorem bias_row128 (b : (⟨S128, .f32⟩ : BufTy).Contents (Elt Ideal)) :
    (fun o : Fin 128 => shapeCast S1x128 b shapeCasts_S128_S1x128 (ix2 (0 : Fin 1) o)) = fun o => b (ix1 o) :=
  funext fun o => shapeCast_a_1a_apply b shapeCasts_S128_S1x128 0 o

/-- Region 0 leaves graph 0's hidden features: the first layer of its arguments. -/
theorem W2_v24 : W2 m ρ c (Proc.devRef .tc main_v24) = layer1 (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg5)) := by
  refine (W2_arr m ρ c 5).trans ((final0 (V1 m ρ) c).trans ?_)
  show dense (W1 m ρ c (Proc.devRef .tc main_v22)) (W1 m ρ c (Proc.devRef .tc main_arg0)) (W1 m ρ c (Proc.devRef .tc main_arg4)) (W1 m ρ c (Proc.devRef .tc main_arg6))
    (fun o => (W1 m ρ c (Proc.devRef .tc main_v23)) (ix2 (0 : Fin 1) o)) = _
  rw [W1_v22, W1_arg0, W1_arg4, W1_arg6, W1_v23, bias_row256]
  rfl

/-- Region 1 leaves graph 0's output: both layers of its arguments. -/
theorem W4_v45 : W4 m ρ c (Proc.devRef .tc main_v45) = graphOut (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 5).trans ((final1 (V3 m ρ) c).trans ?_)
  show dense (W3 m ρ c (Proc.devRef .tc main_v43)) (W3 m ρ c (Proc.devRef .tc main_v24)) (W3 m ρ c (Proc.devRef .tc main_arg7)) (W3 m ρ c (Proc.devRef .tc main_arg9))
    (fun o => (W3 m ρ c (Proc.devRef .tc main_v44)) (ix2 (0 : Fin 1) o)) = _
  rw [W3_v43, W3_v24, W3_arg7, W3_arg9, W3_v44, bias_row128, W2_v24]
  rfl

/-- Region 2 leaves graph 1's hidden features. -/
theorem W6_v70 : W6 m ρ c (Proc.devRef .tc main_v70) = layer1 (m ((c.tc : Thread nD τ).loc main_arg1)) (m ((c.tc : Thread nD τ).loc main_arg3)) (m ((c.tc : Thread nD τ).loc main_arg10)) (m ((c.tc : Thread nD τ).loc main_arg12)) (m ((c.tc : Thread nD τ).loc main_arg11)) := by
  refine (W6_arr m ρ c 5).trans ((final2 (V5 m ρ) c).trans ?_)
  show dense (W5 m ρ c (Proc.devRef .tc main_v68)) (W5 m ρ c (Proc.devRef .tc main_arg1)) (W5 m ρ c (Proc.devRef .tc main_arg10)) (W5 m ρ c (Proc.devRef .tc main_arg12))
    (fun o => (W5 m ρ c (Proc.devRef .tc main_v69)) (ix2 (0 : Fin 1) o)) = _
  rw [W5_v68, W5_arg1, W5_arg10, W5_arg12, W5_v69, bias_row256]
  rfl

/-- Region 3 leaves graph 1's output. -/
theorem W8_v91 : W8 m ρ c (Proc.devRef .tc main_v91) = graphOut (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W8_arr m ρ c 5).trans ((final3 (V7 m ρ) c).trans ?_)
  show dense (W7 m ρ c (Proc.devRef .tc main_v89)) (W7 m ρ c (Proc.devRef .tc main_v70)) (W7 m ρ c (Proc.devRef .tc main_arg13)) (W7 m ρ c (Proc.devRef .tc main_arg15))
    (fun o => (W7 m ρ c (Proc.devRef .tc main_v90)) (ix2 (0 : Fin 1) o)) = _
  rw [W7_v89, W7_v70, W7_arg13, W7_arg15, W7_v90, bias_row128, W6_v70]
  rfl

/-- The kernel program's result, from the launch memory. -/
theorem result_eq : W9 m ρ c (Proc.devRef .tc main_v92)
    = twoGraphs (graphOut (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
        (graphOut (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  rw [W9_v92, W4_v45, W8_v91]

end AtCore

/-- Every weakly fair execution of the kernel program terminates, nothing faulting, with the two-layer network's output
    in the result buffer and the arguments as launched. -/
theorem run : θ_run defs (onTc (τ := τ) (main (F := Ideal))) ⟨m, fun _ => 0, ρ⟩ (fun r => ∀ c : Dev nD,
      r.2.mem ((c.tc : Thread nD τ).loc main_v92)
        = twoGraphs (graphOut (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
            (graphOut (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ c), (h c).2⟩) (run_out m ρ)

end Cert.Sage.K

end
-- ==== Proof.RefLayers.lean ====
/-
  The reference program's dense half of each GraphSAGE layer is the layer function of the specification.

  Each layer of the reference program is: transpose the left weight, multiply the aggregated neighbour means by
  it, add the bias (broadcast along the rows), transpose the right weight, multiply the node features by it, add
  the two, apply tanh.  Read at the output index (r, o): a transposed weight read at (k, o) is the weight at
  (o, k); the broadcast bias read at (r, o) is the bias at o; each product is the plain sum over k.  So the entry
  is tanh ((Σ_k M(r,k)·Wl(o,k) + b(o)) + Σ_k X(r,k)·Wr(o,k)), which is the layer function with the bias moved
  behind the second sum (addition of extended reals is commutative and associative).  The aggregated neighbour
  means M, and in the second layer the first layer's output X, stay opaque operands: nothing about them is used.
  The two layers differ in their extents only (128 → 256 features, then 256 → 128), and the second graph repeats
  the first with its own arguments.
-/
import proofs.«178188_j50740743635551_1_alg».proof.Proof.Gen.ReferenceIdeal.Read
import proofs.«178188_j50740743635551_1_alg».proof.Proof.SageSpec
import Idealize.ShloMosaic.Lib.ValueIdx
import Idealize.ShloMosaic.PureOps.Ideal.Laws

noncomputable section

namespace Cert.Sage.R

open Cert.ReferenceIdeal Cert.ReferenceIdeal.Read Idealize.ShloMosaic Idealize.ShloMosaic.ValueIdx

/-- Layer 1 of graph 0 (128 input features, 256 output features): its output array is the layer function of the
    aggregated neighbour means, the node features, the two weights and the bias. -/
theorem layer1_g0 (x0 : (⟨S50000x128, .f32⟩ : BufTy).Contents (Elt Ideal)) (x2 : (⟨S2x800000, .i32⟩ : BufTy).Contents (Elt Ideal))
    (x4 : (⟨S256x128, .f32⟩ : BufTy).Contents (Elt Ideal)) (x5 : (⟨S256, .f32⟩ : BufTy).Contents (Elt Ideal)) (x6 : (⟨S256x128, .f32⟩ : BufTy).Contents (Elt Ideal)) :
    val_main_v31 (F := Ideal) x0 x2 x4 x5 x6
      = Cert.Sage.dense (val_main_v22 (F := Ideal) x0 x2) x0 x4 x6 (fun o => x5 (ix1 o)) := by
  funext j
  obtain ⟨r, o, rfl⟩ : ∃ (r : Fin 50000) (o : Fin 256), j = ix2 r o := ⟨j 0, j 1, eq_ix2 j⟩
  rw [Cert.Sage.dense_ix2, ← Cert.Sage.denseAt_bias_first,
    val_main_v31_apply, val_main_v30_apply, val_main_v27_apply, val_main_v24_apply, val_main_v29_apply,
    val_main_v26_apply, val_main_v25_apply]
  generalize val_main_v22 (F := Ideal) x0 x2 = M
  -- the left operand of either product is read at (r, k)
  have eL : ∀ k : Fin 128, lidx_main_v24 (ix2 r o) k = ix2 r k := fun k =>
    funext fun a => Fin.ext (by match a with | ⟨0, _⟩ => rfl | ⟨1, _⟩ => rfl)
  have eL' : ∀ k : Fin 128, lidx_main_v29 (ix2 r o) k = ix2 r k := fun k =>
    funext fun a => Fin.ext (by match a with | ⟨0, _⟩ => rfl | ⟨1, _⟩ => rfl)
  -- a transposed weight read at (k, o) is the weight at (o, k)
  have eW : ∀ k : Fin 128, idx_main_v23 (ridx_main_v24 (ix2 r o) k) = ix2 o k := fun k =>
    funext fun a => Fin.ext (by match a with | ⟨0, _⟩ => rfl | ⟨1, _⟩ => rfl)
  have eW' : ∀ k : Fin 128, idx_main_v28 (ridx_main_v29 (ix2 r o) k) = ix2 o k := fun k =>
    funext fun a => Fin.ext (by match a with | ⟨0, _⟩ => rfl | ⟨1, _⟩ => rfl)
  -- the bias broadcast along the rows, read at (r, o), is the bias at o
  have eB : idx_main_v25 (idx_main_v26 (ix2 r o)) = ix1 o :=
    funext fun a => Fin.ext (by match a with | ⟨0, _⟩ => rfl)
  have s1 : (∑ k : Fin 128, M (lidx_main_v24 (ix2 r o) k) * val_main_v23 (F := Ideal) x4 (ridx_main_v24 (ix2 r o) k))
      = ∑ k : Fin 128, M (ix2 r k) * x4 (ix2 o k) :=
    Finset.sum_congr rfl fun k _ => by rw [val_main_v23_apply, eL k, eW k]
  have s2 : (∑ k : Fin 128, x0 (lidx_main_v29 (ix2 r o) k) * val_main_v28 (F := Ideal) x6 (ridx_main_v29 (ix2 r o) k))
      = ∑ k : Fin 128, x0 (ix2 r k) * x6 (ix2 o k) :=
    Finset.sum_congr rfl fun k _ => by rw [val_main_v28_apply, eL' k, eW' k]
  rw [s1, s2, eB, Ideal.hostUnary_tanh_def, Ideal.addf_def, Ideal.addf_def]

/-- Layer 2 of graph 0 (256 input features, 128 output features): the same function of the second aggregation and
    the first layer's output, both kept as opaque operands. -/
theorem layer2_g0 (x0 : (⟨S50000x128, .f32⟩ : BufTy).Contents (Elt Ideal)) (x2 : (⟨S2x800000, .i32⟩ : BufTy).Contents (Elt Ideal))
    (x4 : (⟨S256x128, .f32⟩ : BufTy).Contents (Elt Ideal)) (x5 : (⟨S256, .f32⟩ : BufTy).Contents (Elt Ideal)) (x6 : (⟨S256x128, .f32⟩ : BufTy).Contents (Elt Ideal))
    (x7 : (⟨S128x256, .f32⟩ : BufTy).Contents (Elt Ideal)) (x8 : (⟨S128, .f32⟩ : BufTy).Contents (Elt Ideal)) (x9 : (⟨S128x256, .f32⟩ : BufTy).Contents (Elt Ideal)) :
    val_main_v59 (F := Ideal) x0 x2 x4 x5 x6 x7 x8 x9
      = Cert.Sage.dense (val_main_v50 (F := Ideal) x0 x2 x4 x5 x6) (val_main_v31 (F := Ideal) x0 x2 x4 x5 x6) x7 x9 (fun o => x8 (ix1 o)) := by
  funext j
  obtain ⟨r, o, rfl⟩ : ∃ (r : Fin 50000) (o : Fin 128), j = ix2 r o := ⟨j 0, j 1, eq_ix2 j⟩
  rw [Cert.Sage.dense_ix2, ← Cert.Sage.denseAt_bias_first,
    val_main_v59_apply, val_main_v58_apply, val_main_v55_apply, val_main_v52_apply, val_main_v57_apply,
    val_main_v54_apply, val_main_v53_apply]
  generalize val_main_v50 (F := Ideal) x0 x2 x4 x5 x6 = M
  generalize val_main_v31 (F := Ideal) x0 x2 x4 x5 x6 = X
  -- the left operand of either product is read at (r, k)
  have eL : ∀ k : Fin 256, lidx_main_v52 (ix2 r o) k = ix2 r k := fun k =>
    funext fun a => Fin.ext (by match a with | ⟨0, _⟩ => rfl | ⟨1, _⟩ => rfl)
  have eL' : ∀ k : Fin 256, lidx_main_v57 (ix2 r o) k = ix2 r k := fun k =>
    funext fun a => Fin.ext (by match a with | ⟨0, _⟩ => rfl | ⟨1, _⟩ => rfl)
  -- a transposed weight read at (k, o) is the weight at (o, k)
  have eW : ∀ k : Fin 256, idx_main_v51 (ridx_main_v52 (ix2 r o) k) = ix2 o k := fun k =>
    funext fun a => Fin.ext (by match a with | ⟨0, _⟩ => rfl | ⟨1, _⟩ => rfl)
  have eW' : ∀ k : Fin 256, idx_main_v56 (ridx_main_v57 (ix2 r o) k) = ix2 o k := fun k =>
    funext fun a => Fin.ext (by match a with | ⟨0, _⟩ => rfl | ⟨1, _⟩ => rfl)
  -- the bias broadcast along the rows, read at (r, o), is the bias at o
  have eB : idx_main_v53 (idx_main_v54 (ix2 r o)) = ix1 o :=
    funext fun a => Fin.ext (by match a with | ⟨0, _⟩ => rfl)
  have s1 : (∑ k : Fin 256, M (lidx_main_v52 (ix2 r o) k) * val_main_v51 (F := Ideal) x7 (ridx_main_v52 (ix2 r o) k))
      = ∑ k : Fin 256, M (ix2 r k) * x7 (ix2 o k) :=
    Finset.sum_congr rfl fun k _ => by rw [val_main_v51_apply, eL k, eW k]
  have s2 : (∑ k : Fin 256, X (lidx_main_v57 (ix2 r o) k) * val_main_v56 (F := Ideal) x9 (ridx_main_v57 (ix2 r o) k))
      = ∑ k : Fin 256, X (ix2 r k) * x9 (ix2 o k) :=
    Finset.sum_congr rfl fun k _ => by rw [val_main_v56_apply, eL' k, eW' k]
  rw [s1, s2, eB, Ideal.hostUnary_tanh_def, Ideal.addf_def, Ideal.addf_def]

/-- Layer 1 of graph 1: as for graph 0, with that graph's features, edges, weights and bias. -/
theorem layer1_g1 (x1 : (⟨S50000x128, .f32⟩ : BufTy).Contents (Elt Ideal)) (x3 : (⟨S2x800000, .i32⟩ : BufTy).Contents (Elt Ideal))
    (x10 : (⟨S256x128, .f32⟩ : BufTy).Contents (Elt Ideal)) (x11 : (⟨S256, .f32⟩ : BufTy).Contents (Elt Ideal)) (x12 : (⟨S256x128, .f32⟩ : BufTy).Contents (Elt Ideal)) :
    val_main_v91 (F := Ideal) x1 x3 x10 x11 x12
      = Cert.Sage.dense (val_main_v82 (F := Ideal) x1 x3) x1 x10 x12 (fun o => x11 (ix1 o)) := by
  funext j
  obtain ⟨r, o, rfl⟩ : ∃ (r : Fin 50000) (o : Fin 256), j = ix2 r o := ⟨j 0, j 1, eq_ix2 j⟩
  rw [Cert.Sage.dense_ix2, ← Cert.Sage.denseAt_bias_first,
    val_main_v91_apply, val_main_v90_apply, val_main_v87_apply, val_main_v84_apply, val_main_v89_apply,
    val_main_v86_apply, val_main_v85_apply]
  generalize val_main_v82 (F := Ideal) x1 x3 = M
  -- the left operand of either product is read at (r, k)
  have eL : ∀ k : Fin 128, lidx_main_v84 (ix2 r o) k = ix2 r k := fun k =>
    funext fun a => Fin.ext (by match a with | ⟨0, _⟩ => rfl | ⟨1, _⟩ => rfl)
  have eL' : ∀ k : Fin 128, lidx_main_v89 (ix2 r o) k = ix2 r k := fun k =>
    funext fun a => Fin.ext (by match a with | ⟨0, _⟩ => rfl | ⟨1, _⟩ => rfl)
  -- a transposed weight read at (k, o) is the weight at (o, k)
  have eW : ∀ k : Fin 128, idx_main_v83 (ridx_main_v84 (ix2 r o) k) = ix2 o k := fun k =>
    funext fun a => Fin.ext (by match a with | ⟨0, _⟩ => rfl | ⟨1, _⟩ => rfl)
  have eW' : ∀ k : Fin 128, idx_main_v88 (ridx_main_v89 (ix2 r o) k) = ix2 o k := fun k =>
    funext fun a => Fin.ext (by match a with | ⟨0, _⟩ => rfl | ⟨1, _⟩ => rfl)
  -- the bias broadcast along the rows, read at (r, o), is the bias at o
  have eB : idx_main_v85 (idx_main_v86 (ix2 r o)) = ix1 o :=
    funext fun a => Fin.ext (by match a with | ⟨0, _⟩ => rfl)
  have s1 : (∑ k : Fin 128, M (lidx_main_v84 (ix2 r o) k) * val_main_v83 (F := Ideal) x10 (ridx_main_v84 (ix2 r o) k))
      = ∑ k : Fin 128, M (ix2 r k) * x10 (ix2 o k) :=
    Finset.sum_congr rfl fun k _ => by rw [val_main_v83_apply, eL k, eW k]
  have s2 : (∑ k : Fin 128, x1 (lidx_main_v89 (ix2 r o) k) * val_main_v88 (F := Ideal) x12 (ridx_main_v89 (ix2 r o) k))
      = ∑ k : Fin 128, x1 (ix2 r k) * x12 (ix2 o k) :=
    Finset.sum_congr rfl fun k _ => by rw [val_main_v88_apply, eL' k, eW' k]
  rw [s1, s2, eB, Ideal.hostUnary_tanh_def, Ideal.addf_def, Ideal.addf_def]

/-- Layer 2 of graph 1: as for graph 0. -/
theorem layer2_g1 (x1 : (⟨S50000x128, .f32⟩ : BufTy).Contents (Elt Ideal)) (x3 : (⟨S2x800000, .i32⟩ : BufTy).Contents (Elt Ideal))
    (x10 : (⟨S256x128, .f32⟩ : BufTy).Contents (Elt Ideal)) (x11 : (⟨S256, .f32⟩ : BufTy).Contents (Elt Ideal)) (x12 : (⟨S256x128, .f32⟩ : BufTy).Contents (Elt Ideal))
    (x13 : (⟨S128x256, .f32⟩ : BufTy).Contents (Elt Ideal)) (x14 : (⟨S128, .f32⟩ : BufTy).Contents (Elt Ideal)) (x15 : (⟨S128x256, .f32⟩ : BufTy).Contents (Elt Ideal)) :
    val_main_v119 (F := Ideal) x1 x3 x10 x11 x12 x13 x14 x15
      = Cert.Sage.dense (val_main_v110 (F := Ideal) x1 x3 x10 x11 x12) (val_main_v91 (F := Ideal) x1 x3 x10 x11 x12) x13 x15 (fun o => x14 (ix1 o)) := by
  funext j
  obtain ⟨r, o, rfl⟩ : ∃ (r : Fin 50000) (o : Fin 128), j = ix2 r o := ⟨j 0, j 1, eq_ix2 j⟩
  rw [Cert.Sage.dense_ix2, ← Cert.Sage.denseAt_bias_first,
    val_main_v119_apply, val_main_v118_apply, val_main_v115_apply, val_main_v112_apply, val_main_v117_apply,
    val_main_v114_apply, val_main_v113_apply]
  generalize val_main_v110 (F := Ideal) x1 x3 x10 x11 x12 = M
  generalize val_main_v91 (F := Ideal) x1 x3 x10 x11 x12 = X
  -- the left operand of either product is read at (r, k)
  have eL : ∀ k : Fin 256, lidx_main_v112 (ix2 r o) k = ix2 r k := fun k =>
    funext fun a => Fin.ext (by match a with | ⟨0, _⟩ => rfl | ⟨1, _⟩ => rfl)
  have eL' : ∀ k : Fin 256, lidx_main_v117 (ix2 r o) k = ix2 r k := fun k =>
    funext fun a => Fin.ext (by match a with | ⟨0, _⟩ => rfl | ⟨1, _⟩ => rfl)
  -- a transposed weight read at (k, o) is the weight at (o, k)
  have eW : ∀ k : Fin 256, idx_main_v111 (ridx_main_v112 (ix2 r o) k) = ix2 o k := fun k =>
    funext fun a => Fin.ext (by match a with | ⟨0, _⟩ => rfl | ⟨1, _⟩ => rfl)
  have eW' : ∀ k : Fin 256, idx_main_v116 (ridx_main_v117 (ix2 r o) k) = ix2 o k := fun k =>
    funext fun a => Fin.ext (by match a with | ⟨0, _⟩ => rfl | ⟨1, _⟩ => rfl)
  -- the bias broadcast along the rows, read at (r, o), is the bias at o
  have eB : idx_main_v113 (idx_main_v114 (ix2 r o)) = ix1 o :=
    funext fun a => Fin.ext (by match a with | ⟨0, _⟩ => rfl)
  have s1 : (∑ k : Fin 256, M (lidx_main_v112 (ix2 r o) k) * val_main_v111 (F := Ideal) x13 (ridx_main_v112 (ix2 r o) k))
      = ∑ k : Fin 256, M (ix2 r k) * x13 (ix2 o k) :=
    Finset.sum_congr rfl fun k _ => by rw [val_main_v111_apply, eL k, eW k]
  have s2 : (∑ k : Fin 256, X (lidx_main_v117 (ix2 r o) k) * val_main_v116 (F := Ideal) x15 (ridx_main_v117 (ix2 r o) k))
      = ∑ k : Fin 256, X (ix2 r k) * x15 (ix2 o k) :=
    Finset.sum_congr rfl fun k _ => by rw [val_main_v116_apply, eL' k, eW' k]
  rw [s1, s2, eB, Ideal.hostUnary_tanh_def, Ideal.addf_def, Ideal.addf_def]

end Cert.Sage.R

end
-- ==== Proof.RefValue.lean ====
/-
  The reference program's result is the two-layer network of the specification, on both graphs.

  The reference spells the neighbour aggregation with the same host operations, in the same order and with the same
  constants, as the shared functions `meanAgg128` / `meanAgg256`: unfolding the names on both sides leaves one and the
  same term, so those equations hold by definition.  Each layer's dense half is the layer function (the module on the
  reference's layers); composing, each graph's output is `graphOut` of its arguments and the program's result is the
  two outputs stacked.
-/
import proofs.«178188_j50740743635551_1_alg».proof.Proof.Gen.ReferenceIdeal.Read
import proofs.«178188_j50740743635551_1_alg».proof.Proof.RefLayers
import proofs.«178188_j50740743635551_1_alg».proof.Proof.SageGlue

noncomputable section

namespace Cert.Sage.R

open Cert.ReferenceIdeal Cert.ReferenceIdeal.Read Idealize.ShloMosaic Idealize.ShloMosaic.ValueIdx Idealize.SL.Sem Cert.Sage

/-- Graph 0, first aggregation: the shared mean aggregate of the input features. -/
theorem agg1_g0 (x0 : (⟨S50000x128, .f32⟩ : BufTy).Contents (Elt Ideal)) (x2 : (⟨S2x800000, .i32⟩ : BufTy).Contents (Elt Ideal)) :
    val_main_v22 (F := Ideal) x0 x2 = meanAgg128 x0 (srcOf x2) (dstOf x2) := rfl

/-- Graph 0, second aggregation: the shared mean aggregate of the hidden features. -/
theorem agg2_g0 (x0 : (⟨S50000x128, .f32⟩ : BufTy).Contents (Elt Ideal)) (x2 : (⟨S2x800000, .i32⟩ : BufTy).Contents (Elt Ideal)) (x4 : (⟨S256x128, .f32⟩ : BufTy).Contents (Elt Ideal)) (x5 : (⟨S256, .f32⟩ : BufTy).Contents (Elt Ideal)) (x6 : (⟨S256x128, .f32⟩ : BufTy).Contents (Elt Ideal)) :
    val_main_v50 (F := Ideal) x0 x2 x4 x5 x6 = meanAgg256 (val_main_v31 (F := Ideal) x0 x2 x4 x5 x6) (srcOf x2) (dstOf x2) := rfl

/-- Graph 1, first aggregation. -/
theorem agg1_g1 (x1 : (⟨S50000x128, .f32⟩ : BufTy).Contents (Elt Ideal)) (x3 : (⟨S2x800000, .i32⟩ : BufTy).Contents (Elt Ideal)) :
    val_main_v82 (F := Ideal) x1 x3 = meanAgg128 x1 (srcOf x3) (dstOf x3) := rfl

/-- Graph 1, second aggregation. -/
theorem agg2_g1 (x1 : (⟨S50000x128, .f32⟩ : BufTy).Contents (Elt Ideal)) (x3 : (⟨S2x800000, .i32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) :
    val_main_v110 (F := Ideal) x1 x3 x10 x11 x12 = meanAgg256 (val_main_v91 (F := Ideal) x1 x3 x10 x11 x12) (srcOf x3) (dstOf x3) := rfl

/-- Graph 0 through both layers. -/
theorem graph0 (x0 : (⟨S50000x128, .f32⟩ : BufTy).Contents (Elt Ideal)) (x2 : (⟨S2x800000, .i32⟩ : BufTy).Contents (Elt Ideal)) (x4 : (⟨S256x128, .f32⟩ : BufTy).Contents (Elt Ideal)) (x5 : (⟨S256, .f32⟩ : BufTy).Contents (Elt Ideal)) (x6 : (⟨S256x128, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) :
    val_main_v59 (F := Ideal) x0 x2 x4 x5 x6 x7 x8 x9 = graphOut x0 x2 x4 x5 x6 x7 x8 x9 := by
  rw [layer2_g0, agg2_g0, layer1_g0, agg1_g0]
  rfl

/-- Graph 1 through both layers. -/
theorem graph1 (x1 : (⟨S50000x128, .f32⟩ : BufTy).Contents (Elt Ideal)) (x3 : (⟨S2x800000, .i32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) (x13 : (⟨S128x256, .f32⟩ : BufTy).Contents (Elt Ideal)) (x14 : (⟨S128, .f32⟩ : BufTy).Contents (Elt Ideal)) (x15 : (⟨S128x256, .f32⟩ : BufTy).Contents (Elt Ideal)) :
    val_main_v119 (F := Ideal) x1 x3 x10 x11 x12 x13 x14 x15 = graphOut x1 x3 x10 x11 x12 x13 x14 x15 := by
  rw [layer2_g1, agg2_g1, layer1_g1, agg1_g1]
  rfl

/-- The reference program's result, from the launch memory. -/
theorem result_eq (m : (ℓ : Loc nD τ sig) → Buf (Elt Ideal) ℓ) (c : Dev nD) :
    Cert.ReferenceIdeal.Value.res_main_v120 (F := Ideal) m c
      = twoGraphs (graphOut (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (graphOut (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  rw [val_main_v120_eq]
  unfold val_main_v120
  rw [graph0, graph1]
  rfl

end Cert.Sage.R

end
-- ==== Proof.lean ====
/-
  Two-layer GraphSAGE on two graphs: the tiled kernel program against the plain reference, over the extended reals.

  Both programs build, for each graph, the mean of the neighbours' features at every node (a gather along the edge
  list, a scatter-add at the destinations, a division by the in-degree or one), feed it with the node's own features
  through a dense layer  tanh (mean · Wlᵀ + x · Wrᵀ + b),  and repeat with the hidden features; the two graphs' outputs
  are stacked.  The aggregation is spelt with the same host operations in both programs and is carried as a named
  function, never opened.  The dense layer is where they differ: the kernel program handles 2000 rows at a time on
  the matrix unit and adds the bias last, the reference multiplies whole arrays and adds the bias after the first
  product.  A row of a matrix product depends on that row of the left factor only, and addition of extended reals is
  commutative and associative, so both are the one layer function of the specification; no finiteness of the inputs
  is needed for the value claim.  The kernel program's result is read off its run segment by segment (the boundary
  facts, then one theorem per region), the reference's off its run one operation at a time; both are
  `twoGraphs (graphOut …) (graphOut …)` of the launch memory's arguments, which agree.

  The three frames are the programs' runs with the results dropped; nothing was rewritten by the idealization, so
  the idealized kernel program is the printed one read at exact values.
-/
import proofs.«178188_j50740743635551_1_alg».proof.Defs
import proofs.«178188_j50740743635551_1_alg».proof.Proof.Gen.Kernel
import proofs.«178188_j50740743635551_1_alg».proof.Proof.Gen.Kernel.Frame
import proofs.«178188_j50740743635551_1_alg».proof.Proof.Gen.KernelIdeal
import proofs.«178188_j50740743635551_1_alg».proof.Proof.Gen.KernelIdeal.Frame
import proofs.«178188_j50740743635551_1_alg».proof.Proof.Gen.ReferenceIdeal
import proofs.«178188_j50740743635551_1_alg».proof.Proof.Gen.Pre_finite_inputs
import proofs.«178188_j50740743635551_1_alg».proof.Proof.Gen.ReferenceIdeal.Run
import proofs.«178188_j50740743635551_1_alg».proof.Proof.Gen.ReferenceIdeal.Read
import proofs.«178188_j50740743635551_1_alg».proof.Proof.KValue
import proofs.«178188_j50740743635551_1_alg».proof.Proof.RefValue
import Idealize.ShloMosaic.Adequacy
import Idealize.ShloMosaic.Init

noncomputable section

namespace Cert.Proof

open Idealize.ShloMosaic Idealize.SL.Sem Cert.Sage

/-- The word-level kernel program runs and leaves its arguments as launched. -/
theorem frame_kernel : Cert.frame_Kernel := fun m ρ _ => Cert.Kernel.Gen.frame m ρ

/-- So does the kernel program read at exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the two-layer network's output of the (agreeing) arguments. -/
theorem algebraic : Cert.algebraic_KernelIdeal_ReferenceIdeal := by
  intro m ρ m' ρ' _ hagree
  refine ⟨fun c => twoGraphs (graphOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (graphOut (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))),
    Cert.Sage.K.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.Sage.R.result_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
